-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S2048x8192 : Shape := ⟨2, ![2048, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4096x8192 .f32) (main_arg1 : FVec F S2048x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  main_v8
-- ==== Kernel.lean ====
abbrev S4096x8192 : Shape := ⟨2, ![4096, 8192]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S2048x512 : Shape := ⟨2, ![2048, 512]⟩
abbrev S1024x512 : Shape := ⟨2, ![1024, 512]⟩
abbrev S2048x1024 : Shape := ⟨2, ![2048, 1024]⟩
abbrev S256x512 : Shape := ⟨2, ![256, 512]⟩
abbrev S2048x256 : Shape := ⟨2, ![2048, 256]⟩

abbrev nBuf : Space → Nat
  | .hbm => 13
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S2048x8192, .f32⟩
  | .hbm, ⟨9, _⟩ => ⟨S2048x8192, .f32⟩
  | .hbm, ⟨10, _⟩ => ⟨S2048x8192, .bf16⟩
  | .hbm, ⟨11, _⟩ => ⟨S2048x4096, .bf16⟩
  | .hbm, ⟨12, _⟩ => ⟨S2048x8192, .f32⟩
  | .local _ .vmem, ⟨0, _⟩ => ⟨S2048x512, .bf16⟩
  | .local _ .vmem, ⟨1, _⟩ => ⟨S2048x512, .bf16⟩
  | .local _ .vmem, ⟨2, _⟩ => ⟨S1024x512, .f32⟩
  | .local _ .vmem, ⟨3, _⟩ => ⟨S1024x512, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .vmem, ⟨7, _⟩ => ⟨S2048x4096, .bf16⟩
  | .local _ .vmem, ⟨8, _⟩ => ⟨S256x512, .f32⟩
  | .local _ .vmem, ⟨9, _⟩ => ⟨S256x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k1_cond2 (i : grid1.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S2048x8192_S2048_d1 : S2048x8192.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  packedbf16_S2048x1024_S2048x1024_0_0 : (Rect.unit (s := S2048x1024) ![0, 0] S2048x1024.size inb_S2048x1024_S2048x1024_0_0).PackedRows (EltTy.packing .bf16)
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  dot_S2048x512_S1024x512_S2048x1024_1_1_0_0_n_n_wf : DotDims.WF S2048x512 S1024x512 S2048x1024 [1] [1] [0] [0] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x8192.size a
  hwx0_0 : ∀ i : grid0.Coords, EltTy.bits .bf16 = 32 ∨ (Rect.block (s := S2048x8192) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x8192.size a
  hwx0_1 : ∀ i : grid0.Coords, EltTy.bits .f32 = 32 ∨ (Rect.block (s := S4096x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x4096.size a
  hwx0_2 : ∀ i : grid0.Coords, EltTy.bits .bf16 = 32 ∨ (Rect.block (s := S2048x4096) S2048x1024.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S2048x256.size a ≤ S2048x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S2048x4096.size a
  hwx1_0 : ∀ i : grid1.Coords, EltTy.bits .bf16 = 32 ∨ (Rect.block (s := S2048x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S4096x8192.size a
  hwx1_1 : ∀ i : grid1.Coords, EltTy.bits .f32 = 32 ∨ (Rect.block (s := S4096x8192) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x8192.size a
  hwx1_2 : ∀ i : grid1.Coords, EltTy.bits .f32 = 32 ∨ (Rect.block (s := S2048x8192) S2048x512.size (cc1_transform_2 i) (hinb1_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v6) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v7) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S2048, .f32⟩
  | .hbm, ⟨4, _⟩ => ⟨S2048x1, .f32⟩
  | .hbm, ⟨5, _⟩ => ⟨S_, .f32⟩
  | .hbm, ⟨6, _⟩ => ⟨S2048x1, .f32⟩
  | .hbm, ⟨7, _⟩ => ⟨S2048x1, .f32⟩
  | .hbm, ⟨8, _⟩ => ⟨S2048x8192, .f32⟩
  | .hbm, ⟨9, _⟩ => ⟨S2048x8192, .f32⟩
  | .hbm, ⟨10, _⟩ => ⟨S2048x4096, .f32⟩
  | .hbm, ⟨11, _⟩ => ⟨S2048x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S2048x8192_S2048_d1 : S2048x8192.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x8192_0_1 : S2048x1.BroadcastsInDim S2048x8192 (![0, 1] : Fin 2 → Fin S2048x8192.rank)
  dot_S2048x8192_S4096x8192_S2048x4096_1_1_0_0_n_n_wf : DotDims.WF S2048x8192 S4096x8192 S2048x4096 [1] [1] [0] [0] [] []
  dot_S2048x4096_S4096x8192_S2048x8192_1_0_0_1_n_n_wf : DotDims.WF S2048x4096 S4096x8192 S2048x8192 [1] [0] [0] [1] [] []

variable [Facts₀]

def dot_S2048x8192_S4096x8192_S2048x4096_1_1_0_0_n_n : DotDims S2048x8192 S4096x8192 S2048x4096 where
  lhsContracting := [1]
  rhsContracting := [1]
  lhsNonContracting := [0]
  rhsNonContracting := [0]
  lhsBatch := []
  rhsBatch := []
  wf := dot_S2048x8192_S4096x8192_S2048x4096_1_1_0_0_n_n_wf
def dot_S2048x4096_S4096x8192_S2048x8192_1_0_0_1_n_n : DotDims S2048x4096 S4096x8192 S2048x8192 where
  lhsContracting := [1]
  rhsContracting := [0]
  lhsNonContracting := [0]
  rhsNonContracting := [1]
  lhsBatch := []
  rhsBatch := []
  wf := dot_S2048x4096_S4096x8192_S2048x8192_1_0_0_1_n_n_wf

class Facts : Prop extends Facts₀ where

variable [Facts]
-- ==== Proof.WR0Points.lean ====
/-
  Region 0 (the first matrix product, accumulated over sixteen steps of the contracted axis): where each of the body's two
  conditionals holds on the grid, where the output window is idle, the staging and scratch memrefs by name, and the
  class invariant opened at the scratch accumulator.
-/
import proofs.«140816_j76613626626565_2_alg».proof.Proof.Gen.Kernel.Launch
import proofs.«140816_j76613626626565_2_alg».proof.Proof.Gen.Kernel.Skeleton
import proofs.«140816_j76613626626565_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional (reset the accumulator): the contracted-axis step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (store the accumulator out): the contracted-axis step is the last, 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The memrefs by name -/

abbrev VO0_2 : View sig .tc .vmem S2048x1024 .bf16 := (Memref.whole cc0_stg2_0 : Memref sig .tc .vmem S2048x1024 .bf16).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x1024 .f32 := Memref.whole cc0_scratch0
abbrev VS0 : View sig .tc .vmem S2048x1024 .f32 := scM0.view

/-- The scoped buffers of the core that region 0 neither stages nor accumulates in, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.Kernel.Hand

end
-- ==== Proof.WR0Runs.lean ====
/-
  Region 0's body run once per case of its two conditionals over a symbolic grid point: the first step of the contracted
  axis (the accumulator is reset, then the step's product added), a middle step (the product added onto what the
  accumulator held), the last step (the same, then the accumulator stored out, narrowed). Each run finds the pieces
  the accumulator (and at the last step the output block) ends with.
-/
import proofs.«140816_j76613626626565_2_alg».proof.Proof.WR0Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- First step: the accumulator, at anything, is reset and the product added; the output block is not touched. -/
noncomputable def kernelRun0_A (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole) (hc0 : cond0_0 i) (hc1 : ¬cond0_1 i)
    (x0 : Vec F S2048x512 .bf16) (x1 : Vec F S1024x512 .f32) :
    { LS0 : List (View.Piece (Elt F) S2048x1024 .f32) //
      ∀ (xi2 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle step: the product added onto what the accumulator held (`xs0`); the output block is not touched. -/
noncomputable def kernelRun0_B (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole) (hc0 : ¬cond0_0 i) (hc1 : ¬cond0_1 i)
    (x0 : Vec F S2048x512 .bf16) (x1 : Vec F S1024x512 .f32) (xs0 : Vec F S2048x1024 .f32) :
    { LS0 : List (View.Piece (Elt F) S2048x1024 .f32) //
      ∀ (xi2 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last step: the product added onto what the accumulator held, and the accumulator stored into the output block. -/
noncomputable def kernelRun0_C (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole) (hc0 : ¬cond0_0 i) (hc1 : cond0_1 i)
    (x0 : Vec F S2048x512 .bf16) (x1 : Vec F S1024x512 .f32) (xs0 : Vec F S2048x1024 .f32) :
    Σ' (L2 : List (View.Piece (Elt F) S2048x1024 .bf16)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.WR0Frame.lean ====
/-
  Region 0's proof data and body obligation. After grid point t = 16·d + k the accumulator holds the first k + 1 partial
  products of output column block d added in order onto the zero fill; the output window's staging buffer, at the last
  step of each block, the accumulator narrowed. The invariant carries the accumulator at that contents from point to point.
-/
import proofs.«140816_j76613626626565_2_alg».proof.Proof.WR0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's run leaves, as the skeleton's payloads -/

section Pieces
variable (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole)

theorem scover0_A (hc0 : cond0_0 i) (hc1 : ¬cond0_1 i) (x0 : Vec F S2048x512 .bf16) (x1 : Vec F S1024x512 .f32) (y : S2048x1024.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x1024.size (by sl_kernel_rfl) y

theorem scover0_B (hc0 : ¬cond0_0 i) (hc1 : ¬cond0_1 i) (x0 : Vec F S2048x512 .bf16) (x1 : Vec F S1024x512 .f32) (xs0 : Vec F S2048x1024 .f32) (y : S2048x1024.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S2048x1024.size (by sl_kernel_rfl) y

theorem scover0_C (hc0 : ¬cond0_0 i) (hc1 : cond0_1 i) (x0 : Vec F S2048x512 .bf16) (x1 : Vec F S1024x512 .f32) (xs0 : Vec F S2048x1024 .f32) (y : S2048x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x1024.size (by sl_kernel_rfl) y

theorem cover0_C (hc0 : ¬cond0_0 i) (hc1 : cond0_1 i) (x0 : Vec F S2048x512 .bf16) (x1 : Vec F S1024x512 .f32) (xs0 : Vec F S2048x1024 .f32) (y : S2048x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x1024.size (by sl_kernel_rfl) y

/-- First step: the accumulator ends at the product added onto the zero fill. -/
theorem sread0_A (hc0 : cond0_0 i) (hc1 : ¬cond0_1 i) (x0 : Vec F S2048x512 .bf16) (x1 : Vec F S1024x512 .f32) (f : arg5.view.ty.Contents (Elt F)) :
    arg5.view.read (Elt F) (arg5.view.writes (Elt F) f (kernelRun0_A c i arg2 harg2 arg3 harg3 arg4 harg4 arg5 harg5 hc0 hc1 x0 x1).1) = k0_pay2 x0 x1 (k0_pay1 (F := F)) := by
  rw [View.read_writes_eq_canon _ _ _ (scover0_A c i arg2 harg2 arg3 harg3 arg4 harg4 arg5 harg5 hc0 hc1 x0 x1)]
  unfold kernelRun0_A
  dsimp only
  try sl_unfold_words
  rw [View.canon_cons_unit_zero hz2, View.readCov_unit_zero (S := S2048x1024) _ hz2]
  simp only [View.readAt_eq_ld, harg2.read_unread, harg3.read_unread, View.ld_unit_zero (S := S2048x512) hz2, View.ld_unit_zero (S := S1024x512) hz2]

/-- A middle step: the product added onto what the accumulator held. -/
theorem sread0_B (hc0 : ¬cond0_0 i) (hc1 : ¬cond0_1 i) (x0 : Vec F S2048x512 .bf16) (x1 : Vec F S1024x512 .f32) (xs0 : Vec F S2048x1024 .f32) (f : arg5.view.ty.Contents (Elt F)) :
    arg5.view.read (Elt F) (arg5.view.writes (Elt F) f (kernelRun0_B c i arg2 harg2 arg3 harg3 arg4 harg4 arg5 harg5 hc0 hc1 x0 x1 xs0).1) = k0_pay2 x0 x1 xs0 := by
  rw [View.read_writes_eq_canon _ _ _ (scover0_B c i arg2 harg2 arg3 harg3 arg4 harg4 arg5 harg5 hc0 hc1 x0 x1 xs0)]
  unfold kernelRun0_B
  dsimp only
  try sl_unfold_words
  rw [View.canon_unit_zero hz2]
  simp only [View.readAt_eq_ld, harg2.read_unread, harg3.read_unread, harg5.read_unread, View.ld_unit_zero (S := S2048x512) hz2, View.ld_unit_zero (S := S1024x512) hz2, View.ld_unit_zero (S := S2048x1024) hz2]

/-- The last step leaves the same in the accumulator, -/
theorem sread0_C (hc0 : ¬cond0_0 i) (hc1 : cond0_1 i) (x0 : Vec F S2048x512 .bf16) (x1 : Vec F S1024x512 .f32) (xs0 : Vec F S2048x1024 .f32) (f : arg5.view.ty.Contents (Elt F)) :
    arg5.view.read (Elt F) (arg5.view.writes (Elt F) f (kernelRun0_C c i arg2 harg2 arg3 harg3 arg4 harg4 arg5 harg5 hc0 hc1 x0 x1 xs0).2.1) = k0_pay2 x0 x1 xs0 := by
  rw [View.read_writes_eq_canon _ _ _ (scover0_C c i arg2 harg2 arg3 harg3 arg4 harg4 arg5 harg5 hc0 hc1 x0 x1 xs0)]
  unfold kernelRun0_C
  dsimp only
  try sl_unfold_words
  rw [View.canon_unit_zero hz2]
  simp only [View.readAt_eq_ld, harg2.read_unread, harg3.read_unread, harg5.read_unread, View.ld_unit_zero (S := S2048x512) hz2, View.ld_unit_zero (S := S1024x512) hz2, View.ld_unit_zero (S := S2048x1024) hz2]

/-- and that, narrowed, in the output block. -/
theorem oread0_C (hc0 : ¬cond0_0 i) (hc1 : cond0_1 i) (x0 : Vec F S2048x512 .bf16) (x1 : Vec F S1024x512 .f32) (xs0 : Vec F S2048x1024 .f32) (f : arg4.view.ty.Contents (Elt F)) :
    arg4.view.read (Elt F) (arg4.view.writes (Elt F) f (kernelRun0_C c i arg2 harg2 arg3 harg3 arg4 harg4 arg5 harg5 hc0 hc1 x0 x1 xs0).1) = k0_pay3 (k0_pay2 x0 x1 xs0) := by
  rw [View.read_writes_eq_canon _ _ _ (cover0_C c i arg2 harg2 arg3 harg3 arg4 harg4 arg5 harg5 hc0 hc1 x0 x1 xs0)]
  unfold kernelRun0_C
  dsimp only
  try sl_unfold_words
  rw [View.canon_unit_zero hz2, View.readCov_unit_zero (S := S2048x1024) _ hz2]
  simp only [View.readAt_eq_ld, harg2.read_unread, harg3.read_unread, harg5.read_unread, View.ld_unit_zero (S := S2048x512) hz2, View.ld_unit_zero (S := S1024x512) hz2, View.ld_unit_zero (S := S2048x1024) hz2]

end Pieces

/-! ## The blocks, and the accumulator point by point -/

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The accumulator after point `n`: reset and one product at the first step of a block, one more product at the others. -/
def scAt0 (c : Dev nD) : (n : ℕ) → n < cfg0.N → Vec F S2048x1024 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (scAt0 c n (Nat.lt_of_succ_lt hn))

theorem scAt0_first (c : Dev nD) (t : Fin cfg0.N) (h : t.val % 16 = 0) :
    scAt0 V c t.val t.isLt = k0_pay2 (iblk0 V c 0 t) (iblk0 V c 1 t) (k0_pay1 (F := F)) := by
  obtain ⟨n, hn⟩ := t
  cases n with
  | zero => rfl
  | succ n => exact if_pos h

theorem scAt0_next (c : Dev nD) (t : Fin cfg0.N) (h : ¬t.val % 16 = 0) :
    scAt0 V c t.val t.isLt = k0_pay2 (iblk0 V c 0 t) (iblk0 V c 1 t) (scAt0 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: the class's before the first point; afterwards the accumulator at what the point
    before left, the other scoped buffers and the generator register at something. -/
def PhiS0 (c : Dev nD) : (n : ℕ) → n ≤ cfg0.N → sProp 𝕄
  | 0, _ => Pipeline.ΦA spec0 c
  | n + 1, hn => iprop(iprop(owns (c : Thread nD τ) scM0 fullShare (scAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (scAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (scAt0 V c (n - 1) (by omega)) ∗ rest0 c) ∗ (∃ r, prngReg c r)) := by
  cases n with
  | zero => exact absurd rfl hz
  | succ n => rfl

/-! ## The proof data -/

/-- The arrays as the region finds them; after the body each input's buffer at its block and the output's at the
    accumulator narrowed (consulted only where the window is live); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h1 : t.val % 16 = 15
  · -- the last step of a block
    have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [scAt0_next V c t h0]
    rw [PhiS0_castSucc V c t, PhiS0_pos V c _ _ hz]
    iintro ⟨⟨⟨HS0, Hr⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact sread0_C c _ _ _ _ _ _ _ _ _ _ _ _ _ _ _
        iexact Hr
      iexact Hg
    isplitl [Ho]; · iexact Ho
    isplitl [H0]; · iexact H0
    isplitl [H1]; · iexact H1
    unfold owns; iexists _; isplitr
    swap; · iexact H2
    ipureintro; exact oread0_C c _ _ _ _ _ _ _ _ _ _ _ _ _ _ _
  · rw [Dat.leavesExact_idle (dat0 V c) 2 t (idleAt0_2 t (fun h => h1 ((hcond0_1 t).mp h))) (noFlush0_2 t (fun h => h1 ((hcond0_1 t).mp h)))]
    by_cases h0 : t.val % 16 = 0
    · -- the first step of a block: whatever the accumulator held is overwritten
      rw [scAt0_first V c t h0]
      have hrun := (kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact sread0_A c _ _ _ _ _ _ _ _ _ _ _ _ _ _
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hr⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact sread0_A c _ _ _ _ _ _ _ _ _ _ _ _ _ _
            iexact Hr
          iexact Hg
        isplitl [Ho]; · iexact Ho
        isplitl [H0]; · iexact H0
        isplitl [H1]; · iexact H1
        iexists _; iexact H2
    · -- a middle step
      have hz : t.val ≠ 0 := fun h => h0 (by rw [h])
      rw [scAt0_next V c t h0]
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact sread0_B c _ _ _ _ _ _ _ _ _ _ _ _ _ _ _
          iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Region

end Cert.Kernel.Hand

end
-- ==== Proof.WR1Points.lean ====
/-
  Region 1 (the second matrix product, accumulated over sixteen steps of its contracted axis): where each of the body's two
  conditionals holds on the grid, where the output window is idle, the staging and scratch memrefs by name, and the
  class invariant opened at the scratch accumulator.
-/
import proofs.«140816_j76613626626565_2_alg».proof.Proof.Gen.Kernel.Launch
import proofs.«140816_j76613626626565_2_alg».proof.Proof.Gen.Kernel.Skeleton
import proofs.«140816_j76613626626565_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional (reset the accumulator): the contracted-axis step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional (store the accumulator out): the contracted-axis step is the last, 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last step the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last step it is live. -/
theorem liveAt1_2 : ∀ t : Fin cfg1.N, cond1_1 (grid1.coords t) → cfg1.idle 2 (grid1.coords t) = false := by decide +kernel

/-! ## The memrefs by name -/

abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x512 .f32 := Memref.whole cc1_scratch0
abbrev VS1 : View sig .tc .vmem S2048x512 .f32 := scM1.view

/-- The class invariant with the accumulator owned at some contents, the core's other scoped buffers (region 0's) each at something. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.WR1Runs.lean ====
/-
  Region 1's body run once per case of its two conditionals over a symbolic grid point: the first step of the contracted
  axis (the accumulator is reset, then the step's product added), a middle step (the product added onto what the
  accumulator held), the last step (the same, then the accumulator stored out). Each run finds the pieces
  the accumulator (and at the last step the output block) ends with.
-/
import proofs.«140816_j76613626626565_2_alg».proof.Proof.WR1Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step: the accumulator, at anything, is reset and the product added; the output block is not touched. -/
noncomputable def kernelRun1_A (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole) (hc0 : cond1_0 i) (hc1 : ¬cond1_1 i)
    (x0 : Vec F S2048x4096 .bf16) (x1 : Vec F S256x512 .f32) :
    { LS0 : List (View.Piece (Elt F) S2048x512 .f32) //
      ∀ (xi2 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm2_kernel i arg2 harg2 arg3 harg3 arg4 harg4 arg5 harg5) K } := by
  refine ⟨?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle step: the product added onto what the accumulator held (`xs0`); the output block is not touched. -/
noncomputable def kernelRun1_B (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole) (hc0 : ¬cond1_0 i) (hc1 : ¬cond1_1 i)
    (x0 : Vec F S2048x4096 .bf16) (x1 : Vec F S256x512 .f32) (xs0 : Vec F S2048x512 .f32) :
    { LS0 : List (View.Piece (Elt F) S2048x512 .f32) //
      ∀ (xi2 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm2_kernel i arg2 harg2 arg3 harg3 arg4 harg4 arg5 harg5) K } := by
  refine ⟨?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last step: the product added onto what the accumulator held, and the accumulator stored into the output block. -/
noncomputable def kernelRun1_C (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole) (hc0 : ¬cond1_0 i) (hc1 : cond1_1 i)
    (x0 : Vec F S2048x4096 .bf16) (x1 : Vec F S256x512 .f32) (xs0 : Vec F S2048x512 .f32) :
    Σ' (L2 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm2_kernel i arg2 harg2 arg3 harg3 arg4 harg4 arg5 harg5) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.WR1Frame.lean ====
/-
  Region 1's proof data and body obligation. After grid point t = 16·n + k the accumulator holds the first k + 1 partial
  products of output column block n added in order onto the zero fill; the output window's staging buffer, at the last
  step of each block, the accumulator. The invariant carries the accumulator at that contents from point to point.
-/
import proofs.«140816_j76613626626565_2_alg».proof.Proof.WR1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

/-- The columns of the resident left operand that step `i 1` of the contracted axis multiplies: 256 columns from 256·(i 1). -/
def colsAt (i : grid1.Coords) (x0 : Vec F S2048x4096 .bf16) : Vec F S2048x256 .bf16 :=
  View.ld x0 (Rect.unit (s := S2048x4096) (k1_off1 i) S2048x256.size (k1_off1_inb i))

/-! ## What each case's run leaves, as the skeleton's payloads -/

section Pieces
variable (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole)

theorem scover1_A (hc0 : cond1_0 i) (hc1 : ¬cond1_1 i) (x0 : Vec F S2048x4096 .bf16) (x1 : Vec F S256x512 .f32) (y : S2048x512.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2048x512.size (by sl_kernel_rfl) y

theorem scover1_B (hc0 : ¬cond1_0 i) (hc1 : ¬cond1_1 i) (x0 : Vec F S2048x4096 .bf16) (x1 : Vec F S256x512 .f32) (xs0 : Vec F S2048x512 .f32) (y : S2048x512.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S2048x512.size (by sl_kernel_rfl) y

theorem scover1_C (hc0 : ¬cond1_0 i) (hc1 : cond1_1 i) (x0 : Vec F S2048x4096 .bf16) (x1 : Vec F S256x512 .f32) (xs0 : Vec F S2048x512 .f32) (y : S2048x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x512.size (by sl_kernel_rfl) y

theorem cover1_C (hc0 : ¬cond1_0 i) (hc1 : cond1_1 i) (x0 : Vec F S2048x4096 .bf16) (x1 : Vec F S256x512 .f32) (xs0 : Vec F S2048x512 .f32) (y : S2048x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x512.size (by sl_kernel_rfl) y

/-- First step: the accumulator ends at the product added onto the zero fill. -/
theorem sread1_A (hc0 : cond1_0 i) (hc1 : ¬cond1_1 i) (x0 : Vec F S2048x4096 .bf16) (x1 : Vec F S256x512 .f32) (f : arg5.view.ty.Contents (Elt F)) :
    arg5.view.read (Elt F) (arg5.view.writes (Elt F) f (kernelRun1_A c i arg2 harg2 arg3 harg3 arg4 harg4 arg5 harg5 hc0 hc1 x0 x1).1) = k1_pay2 (colsAt i x0) x1 (k1_pay1 (F := F)) := by
  rw [View.read_writes_eq_canon _ _ _ (scover1_A c i arg2 harg2 arg3 harg3 arg4 harg4 arg5 harg5 hc0 hc1 x0 x1)]
  unfold kernelRun1_A
  dsimp only
  try sl_unfold_words
  rw [View.canon_cons_unit_zero hz2', View.readCov_unit_zero (S := S2048x512) _ hz2']
  simp only [View.readAt_eq_ld, harg2.read_unread, harg3.read_unread, View.ld_unit_zero (S := S256x512) hz2']
  rfl

/-- A middle step: the product added onto what the accumulator held. -/
theorem sread1_B (hc0 : ¬cond1_0 i) (hc1 : ¬cond1_1 i) (x0 : Vec F S2048x4096 .bf16) (x1 : Vec F S256x512 .f32) (xs0 : Vec F S2048x512 .f32) (f : arg5.view.ty.Contents (Elt F)) :
    arg5.view.read (Elt F) (arg5.view.writes (Elt F) f (kernelRun1_B c i arg2 harg2 arg3 harg3 arg4 harg4 arg5 harg5 hc0 hc1 x0 x1 xs0).1) = k1_pay2 (colsAt i x0) x1 xs0 := by
  rw [View.read_writes_eq_canon _ _ _ (scover1_B c i arg2 harg2 arg3 harg3 arg4 harg4 arg5 harg5 hc0 hc1 x0 x1 xs0)]
  unfold kernelRun1_B
  dsimp only
  try sl_unfold_words
  rw [View.canon_unit_zero hz2']
  simp only [View.readAt_eq_ld, harg2.read_unread, harg3.read_unread, harg5.read_unread, View.ld_unit_zero (S := S256x512) hz2', View.ld_unit_zero (S := S2048x512) hz2']
  rfl

/-- The last step leaves the same in the accumulator, -/
theorem sread1_C (hc0 : ¬cond1_0 i) (hc1 : cond1_1 i) (x0 : Vec F S2048x4096 .bf16) (x1 : Vec F S256x512 .f32) (xs0 : Vec F S2048x512 .f32) (f : arg5.view.ty.Contents (Elt F)) :
    arg5.view.read (Elt F) (arg5.view.writes (Elt F) f (kernelRun1_C c i arg2 harg2 arg3 harg3 arg4 harg4 arg5 harg5 hc0 hc1 x0 x1 xs0).2.1) = k1_pay2 (colsAt i x0) x1 xs0 := by
  rw [View.read_writes_eq_canon _ _ _ (scover1_C c i arg2 harg2 arg3 harg3 arg4 harg4 arg5 harg5 hc0 hc1 x0 x1 xs0)]
  unfold kernelRun1_C
  dsimp only
  try sl_unfold_words
  rw [View.canon_unit_zero hz2']
  simp only [View.readAt_eq_ld, harg2.read_unread, harg3.read_unread, harg5.read_unread, View.ld_unit_zero (S := S256x512) hz2', View.ld_unit_zero (S := S2048x512) hz2']
  rfl

/-- and in the output block. -/
theorem oread1_C (hc0 : ¬cond1_0 i) (hc1 : cond1_1 i) (x0 : Vec F S2048x4096 .bf16) (x1 : Vec F S256x512 .f32) (xs0 : Vec F S2048x512 .f32) (f : arg4.view.ty.Contents (Elt F)) :
    arg4.view.read (Elt F) (arg4.view.writes (Elt F) f (kernelRun1_C c i arg2 harg2 arg3 harg3 arg4 harg4 arg5 harg5 hc0 hc1 x0 x1 xs0).1) = k1_pay2 (colsAt i x0) x1 xs0 := by
  rw [View.read_writes_eq_canon _ _ _ (cover1_C c i arg2 harg2 arg3 harg3 arg4 harg4 arg5 harg5 hc0 hc1 x0 x1 xs0)]
  unfold kernelRun1_C
  dsimp only
  try sl_unfold_words
  rw [View.canon_unit_zero hz2', View.readCov_unit_zero (S := S2048x512) _ hz2']
  simp only [View.readAt_eq_ld, harg2.read_unread, harg3.read_unread, harg5.read_unread, View.ld_unit_zero (S := S256x512) hz2', View.ld_unit_zero (S := S2048x512) hz2']
  rfl

end Pieces

/-! ## The blocks, and the accumulator point by point -/

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One step's update of the accumulator at point `t`. -/
def step1 (c : Dev nD) (t : Fin cfg1.N) (acc : Vec F S2048x512 .f32) : Vec F S2048x512 .f32 :=
  k1_pay2 (colsAt (grid1.coords t) (iblk1 V c 0 t)) (iblk1 V c 1 t) acc

/-- The accumulator after point `n`: reset and one product at the first step of a block, one more product at the others. -/
def scAt1 (c : Dev nD) : (n : ℕ) → n < cfg1.N → Vec F S2048x512 .f32
  | 0, hn => step1 V c ⟨0, hn⟩ (k1_pay1 (F := F))
  | n + 1, hn =>
    if (n + 1) % 16 = 0 then step1 V c ⟨n + 1, hn⟩ (k1_pay1 (F := F))
    else step1 V c ⟨n + 1, hn⟩ (scAt1 c n (Nat.lt_of_succ_lt hn))

theorem scAt1_first (c : Dev nD) (t : Fin cfg1.N) (h : t.val % 16 = 0) :
    scAt1 V c t.val t.isLt = step1 V c t (k1_pay1 (F := F)) := by
  obtain ⟨n, hn⟩ := t
  cases n with
  | zero => rfl
  | succ n => exact if_pos h

theorem scAt1_next (c : Dev nD) (t : Fin cfg1.N) (h : ¬t.val % 16 = 0) :
    scAt1 V c t.val t.isLt = step1 V c t (scAt1 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: the class's before the first point; afterwards the accumulator at what the point
    before left, the other scoped buffers and the generator register at something. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (scAt1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (scAt1 V c (n - 1) (by omega))) ∗ (∃ r, prngReg c r)) := by
  cases n with
  | zero => exact absurd rfl hz
  | succ n => rfl

/-! ## The proof data -/

/-- The arrays as the region finds them; after the body each input's buffer at its block and the output's at the
    accumulator (consulted only where the window is live); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h1 : t.val % 16 = 15
  · -- the last step of a block
    have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [scAt1_next V c t h0]
    unfold step1
    rw [PhiS1_castSucc V c t, PhiS1_pos V c _ _ hz]
    iintro ⟨⟨⟨R0, R1, R2, R3, R4, R5, R6, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitr [Ho H0 H1 H2]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact sread1_C c _ _ _ _ _ _ _ _ _ _ _ _ _ _ _
      iexact Hg
    isplitl [Ho]; · iexact Ho
    isplitl [H0]; · iexact H0
    isplitl [H1]; · iexact H1
    unfold owns; iexists _; isplitr
    swap; · iexact H2
    ipureintro; exact oread1_C c _ _ _ _ _ _ _ _ _ _ _ _ _ _ _
  · rw [Dat.leavesExact_idle (dat1 V c) 2 t (idleAt1_2 t (fun h => h1 ((hcond1_1 t).mp h))) (noFlush1_2 t (fun h => h1 ((hcond1_1 t).mp h)))]
    by_cases h0 : t.val % 16 = 0
    · -- the first step of a block: whatever the accumulator held is overwritten
      rw [scAt1_first V c t h0]
      unfold step1
      have hrun := (kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2
      by_cases hz : t.val = 0
      · rw [PhiS1_castSucc V c t, PhiS1_zero V c _ _ hz, PhiA1_eq]
        iintro ⟨⟨⟨R0, R1, R2, R3, R4, R5, R6, HS0⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexact HS0
        iintro ⟨H0, H1, H2, ⟨%es0, HS0⟩⟩
        isplitr [Ho H0 H1 H2]
        · isplitr [Hg]
          · isplitl [R0]; · iexact R0
            isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact sread1_A c _ _ _ _ _ _ _ _ _ _ _ _ _ _
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨R0, R1, R2, R3, R4, R5, R6, HS0⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexists _; iexact HS0
        iintro ⟨H0, H1, H2, ⟨%es0, HS0⟩⟩
        isplitr [Ho H0 H1 H2]
        · isplitr [Hg]
          · isplitl [R0]; · iexact R0
            isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact sread1_A c _ _ _ _ _ _ _ _ _ _ _ _ _ _
          iexact Hg
        isplitl [Ho]; · iexact Ho
        isplitl [H0]; · iexact H0
        isplitl [H1]; · iexact H1
        iexists _; iexact H2
    · -- a middle step
      have hz : t.val ≠ 0 := fun h => h0 (by rw [h])
      rw [scAt1_next V c t h0]
      unfold step1
      rw [PhiS1_castSucc V c t, PhiS1_pos V c _ _ hz]
      iintro ⟨⟨⟨R0, R1, R2, R3, R4, R5, R6, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitr [Ho H0 H1 H2]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact sread1_B c _ _ _ _ _ _ _ _ _ _ _ _ _ _ _
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨R0, R1, R2, R3, R4, R5, R6, HS0⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS0
  iexact Hg

end Region

end Cert.Kernel.Hand

end
-- ==== Proof.WRun.lean ====
/-
  The whole run of @main: nine host operations (the row means of the second argument subtracted from it, narrowed), then the
  two kernel regions, as a list of segments. Between segments the core holds every unscoped buffer at contents
  named by a fold from the launch memory: after the host operations their composed term; after a region its arrays at
  what its write-backs leave, every other buffer untouched. Every weakly fair execution terminates with every
  unscoped buffer at the last fold's contents.
-/
import proofs.«140816_j76613626626565_2_alg».proof.Proof.WR0Frame
import proofs.«140816_j76613626626565_2_alg».proof.Proof.WR1Frame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents, which region 1 is entered from. -/
abbrev Vin1 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vin1 m ρ c (Pipeline.arrRef spec0 w) :=
  (W2_arr m ρ c w).symm
theorem hrest0 (c : Dev nD) : ∀ b, b ∉ Finset.univ.image (Pipeline.arrRef spec0) → Vin1 m ρ c b = Vin0 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vend : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vend m ρ c (Pipeline.arrRef spec1 w) :=
  (W3_arr m ρ c w).symm
theorem hrest1 (c : Dev nD) : ∀ b, b ∉ Finset.univ.image (Pipeline.arrRef spec1) → Vend m ρ c b = Vin1 m ρ c b :=
  fun b hb => W3_of_ne m ρ c b fun w e => hb (Finset.mem_image.mpr ⟨w, Finset.mem_univ _, e⟩)

/-! ### The arguments end as launched -/

theorem hostOps0_keeps (c : Dev nD) (b : Ref sig .tc) (hb : b ∉ ([main_cst, main_v0, main_v1, main_cst_0, main_v2, main_v3, main_v4, main_v5, main_v6] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [List.mem_cons, List.mem_nil_iff, or_false, not_or] at hb
    obtain ⟨h0, h1, h2, h3, h4, h5, h6, h7, h8⟩ := hb
    simp only [hostOps0, List.Forall, StableHlo.nullary_writes, StableHlo.unary_writes, StableHlo.binary_writes, Finset.mem_singleton]
    repeat' apply And.intro
    all_goals exact StableHlo.devRef_ne_of_ne ‹_›))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 1).trans (((dat1 (Vin1 m ρ) c).arrAt_in 1 rfl _).trans (A_eq1 (Vin1 m ρ) c 1))
    _ = W1 m ρ c (Proc.devRef .tc main_arg0) := (W2_arr m ρ c 1).trans (((dat0 (Vin0 m ρ) c).arrAt_in 1 rfl _).trans (A_eq0 (Vin0 m ρ) c 1))
    _ = W0 m ρ c (Proc.devRef .tc main_arg0) := hostOps0_keeps m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := hostOps0_keeps m ρ c main_arg1 (by decide)
    _ = m ((c : Thread nD τ).loc main_arg1) := rfl

/-- The result's buffer ends at what region 1's write-backs leave in its output window's array. -/
theorem W3_main_v8 (c : Dev nD) : W3 m ρ c (Proc.devRef .tc main_v8) = (dat1 (Vin1 m ρ) c).arrAt 2 cfg1.N :=
  W3_arr m ρ c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    rw [Pipeline.ownSems0_none]
    refine BIBase.Entails.trans (hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vin1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    rw [Pipeline.ownSems0_none]
    refine BIBase.Entails.trans (hout1 (Vin1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vend m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- At the compiled mesh, from any memory with zero counters: every weakly fair execution of @main on the TensorCores
    terminates, nothing faulting, and every final state has every unscoped buffer of every core at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run, read at the arguments and the result: the arguments end as launched, the result at what region 1's
    write-backs leave in its output array. -/
theorem run_read : θ_run defs (onTc (τ := τ) (main (F := F))) ⟨m, fun _ => 0, ρ⟩ (fun r => ∀ c : Dev nD,
      r.2.mem ((c.tc : Thread nD τ).loc main_v8) = (dat1 (Vin1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v8 (by decide))).trans (W3_main_v8 m ρ c),
     (h c _ (mem_uc main_arg0 (by decide))).trans (W3_main_arg0 m ρ c),
     (h c _ (mem_uc main_arg1 (by decide))).trans (W3_main_arg1 m ρ c)⟩) (run_main m ρ)

/-- The frame: every execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_read m ρ)

end Cert.Kernel.Hand

end
-- ==== Proof.R0Points.lean ====
/-
  Region 0 (the first matrix product, accumulated over sixteen steps of the contracted axis): where each of the body's two
  conditionals holds on the grid, where the output window is idle, the staging and scratch memrefs by name, and the
  class invariant opened at the scratch accumulator.
-/
import proofs.«140816_j76613626626565_2_alg».proof.Proof.Gen.KernelIdeal.Launch
import proofs.«140816_j76613626626565_2_alg».proof.Proof.Gen.KernelIdeal.Skeleton
import proofs.«140816_j76613626626565_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional (reset the accumulator): the contracted-axis step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (store the accumulator out): the contracted-axis step is the last, 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The memrefs by name -/

abbrev VO0_2 : View sig .tc .vmem S2048x1024 .bf16 := (Memref.whole cc0_stg2_0 : Memref sig .tc .vmem S2048x1024 .bf16).view
abbrev ms0_0 (t : Fin cfg0.N) : Memref sig .tc .vmem S2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x1024 .f32 := Memref.whole cc0_scratch0
abbrev VS0 : View sig .tc .vmem S2048x1024 .f32 := scM0.view

/-- The scoped buffers of the core that region 0 neither stages nor accumulates in, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.KernelIdeal.Hand

end
-- ==== Proof.R0Runs.lean ====
/-
  Region 0's body run once per case of its two conditionals over a symbolic grid point: the first step of the contracted
  axis (the accumulator is reset, then the step's product added), a middle step (the product added onto what the
  accumulator held), the last step (the same, then the accumulator stored out, narrowed). Each run finds the pieces
  the accumulator (and at the last step the output block) ends with.
-/
import proofs.«140816_j76613626626565_2_alg».proof.Proof.R0Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- First step: the accumulator, at anything, is reset and the product added; the output block is not touched. -/
noncomputable def kernelRun0_A (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole) (hc0 : cond0_0 i) (hc1 : ¬cond0_1 i)
    (x0 : Vec F S2048x512 .bf16) (x1 : Vec F S1024x512 .f32) :
    { LS0 : List (View.Piece (Elt F) S2048x1024 .f32) //
      ∀ (xi2 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle step: the product added onto what the accumulator held (`xs0`); the output block is not touched. -/
noncomputable def kernelRun0_B (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole) (hc0 : ¬cond0_0 i) (hc1 : ¬cond0_1 i)
    (x0 : Vec F S2048x512 .bf16) (x1 : Vec F S1024x512 .f32) (xs0 : Vec F S2048x1024 .f32) :
    { LS0 : List (View.Piece (Elt F) S2048x1024 .f32) //
      ∀ (xi2 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, fun xi2 E K => ?run⟩
  case run =>
    simp only [cc0__mm1_kernel_eq_skeleton]; unfold cc0__mm1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last step: the product added onto what the accumulator held, and the accumulator stored into the output block. -/
noncomputable def kernelRun0_C (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole) (hc0 : ¬cond0_0 i) (hc1 : cond0_1 i)
    (x0 : Vec F S2048x512 .bf16) (x1 : Vec F S1024x512 .f32) (xs0 : Vec F S2048x1024 .f32) :
    Σ' (L2 : List (View.Piece (Elt F) S2048x1024 .bf16)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm1_kernel i arg2 harg2 arg3 harg3 arg4 harg4 arg5 harg5) K } := by
  refine ⟨?_, ?_, fun E K => ?run⟩
  case run =>
    simp only [cc0__mm1_kernel_eq_skeleton]; unfold cc0__mm1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R0Frame.lean ====
/-
  Region 0's proof data and body obligation. After grid point t = 16·d + k the accumulator holds the first k + 1 partial
  products of output column block d added in order onto the zero fill; the output window's staging buffer, at the last
  step of each block, the accumulator narrowed. The invariant carries the accumulator at that contents from point to point.
-/
import proofs.«140816_j76613626626565_2_alg».proof.Proof.R0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-! ## What each case's run leaves, as the skeleton's payloads -/

section Pieces
variable (c : Dev nD) (i : grid0.Coords) (arg2 : Memref sig .tc .vmem S2048x512 .bf16) (harg2 : arg2.IsWhole) (arg3 : Memref sig .tc .vmem S1024x512 .f32) (harg3 : arg3.IsWhole) (arg4 : Memref sig .tc .vmem S2048x1024 .bf16) (harg4 : arg4.IsWhole) (arg5 : Memref sig .tc .vmem S2048x1024 .f32) (harg5 : arg5.IsWhole)

theorem scover0_A (hc0 : cond0_0 i) (hc1 : ¬cond0_1 i) (x0 : Vec F S2048x512 .bf16) (x1 : Vec F S1024x512 .f32) (y : S2048x1024.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x1024.size (by sl_kernel_rfl) y

theorem scover0_B (hc0 : ¬cond0_0 i) (hc1 : ¬cond0_1 i) (x0 : Vec F S2048x512 .bf16) (x1 : Vec F S1024x512 .f32) (xs0 : Vec F S2048x1024 .f32) (y : S2048x1024.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S2048x1024.size (by sl_kernel_rfl) y

theorem scover0_C (hc0 : ¬cond0_0 i) (hc1 : cond0_1 i) (x0 : Vec F S2048x512 .bf16) (x1 : Vec F S1024x512 .f32) (xs0 : Vec F S2048x1024 .f32) (y : S2048x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x1024.size (by sl_kernel_rfl) y

theorem cover0_C (hc0 : ¬cond0_0 i) (hc1 : cond0_1 i) (x0 : Vec F S2048x512 .bf16) (x1 : Vec F S1024x512 .f32) (xs0 : Vec F S2048x1024 .f32) (y : S2048x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x1024.size (by sl_kernel_rfl) y

/-- First step: the accumulator ends at the product added onto the zero fill. -/
theorem sread0_A (hc0 : cond0_0 i) (hc1 : ¬cond0_1 i) (x0 : Vec F S2048x512 .bf16) (x1 : Vec F S1024x512 .f32) (f : arg5.view.ty.Contents (Elt F)) :
    arg5.view.read (Elt F) (arg5.view.writes (Elt F) f (kernelRun0_A c i arg2 harg2 arg3 harg3 arg4 harg4 arg5 harg5 hc0 hc1 x0 x1).1) = k0_pay2 x0 x1 (k0_pay1 (F := F)) := by
  rw [View.read_writes_eq_canon _ _ _ (scover0_A c i arg2 harg2 arg3 harg3 arg4 harg4 arg5 harg5 hc0 hc1 x0 x1)]
  unfold kernelRun0_A
  dsimp only
  try sl_unfold_words
  rw [View.canon_cons_unit_zero hz2, View.readCov_unit_zero (S := S2048x1024) _ hz2]
  simp only [View.readAt_eq_ld, harg2.read_unread, harg3.read_unread, View.ld_unit_zero (S := S2048x512) hz2, View.ld_unit_zero (S := S1024x512) hz2]

/-- A middle step: the product added onto what the accumulator held. -/
theorem sread0_B (hc0 : ¬cond0_0 i) (hc1 : ¬cond0_1 i) (x0 : Vec F S2048x512 .bf16) (x1 : Vec F S1024x512 .f32) (xs0 : Vec F S2048x1024 .f32) (f : arg5.view.ty.Contents (Elt F)) :
    arg5.view.read (Elt F) (arg5.view.writes (Elt F) f (kernelRun0_B c i arg2 harg2 arg3 harg3 arg4 harg4 arg5 harg5 hc0 hc1 x0 x1 xs0).1) = k0_pay2 x0 x1 xs0 := by
  rw [View.read_writes_eq_canon _ _ _ (scover0_B c i arg2 harg2 arg3 harg3 arg4 harg4 arg5 harg5 hc0 hc1 x0 x1 xs0)]
  unfold kernelRun0_B
  dsimp only
  try sl_unfold_words
  rw [View.canon_unit_zero hz2]
  simp only [View.readAt_eq_ld, harg2.read_unread, harg3.read_unread, harg5.read_unread, View.ld_unit_zero (S := S2048x512) hz2, View.ld_unit_zero (S := S1024x512) hz2, View.ld_unit_zero (S := S2048x1024) hz2]

/-- The last step leaves the same in the accumulator, -/
theorem sread0_C (hc0 : ¬cond0_0 i) (hc1 : cond0_1 i) (x0 : Vec F S2048x512 .bf16) (x1 : Vec F S1024x512 .f32) (xs0 : Vec F S2048x1024 .f32) (f : arg5.view.ty.Contents (Elt F)) :
    arg5.view.read (Elt F) (arg5.view.writes (Elt F) f (kernelRun0_C c i arg2 harg2 arg3 harg3 arg4 harg4 arg5 harg5 hc0 hc1 x0 x1 xs0).2.1) = k0_pay2 x0 x1 xs0 := by
  rw [View.read_writes_eq_canon _ _ _ (scover0_C c i arg2 harg2 arg3 harg3 arg4 harg4 arg5 harg5 hc0 hc1 x0 x1 xs0)]
  unfold kernelRun0_C
  dsimp only
  try sl_unfold_words
  rw [View.canon_unit_zero hz2]
  simp only [View.readAt_eq_ld, harg2.read_unread, harg3.read_unread, harg5.read_unread, View.ld_unit_zero (S := S2048x512) hz2, View.ld_unit_zero (S := S1024x512) hz2, View.ld_unit_zero (S := S2048x1024) hz2]

/-- and that, narrowed, in the output block. -/
theorem oread0_C (hc0 : ¬cond0_0 i) (hc1 : cond0_1 i) (x0 : Vec F S2048x512 .bf16) (x1 : Vec F S1024x512 .f32) (xs0 : Vec F S2048x1024 .f32) (f : arg4.view.ty.Contents (Elt F)) :
    arg4.view.read (Elt F) (arg4.view.writes (Elt F) f (kernelRun0_C c i arg2 harg2 arg3 harg3 arg4 harg4 arg5 harg5 hc0 hc1 x0 x1 xs0).1) = k0_pay3 (k0_pay2 x0 x1 xs0) := by
  rw [View.read_writes_eq_canon _ _ _ (cover0_C c i arg2 harg2 arg3 harg3 arg4 harg4 arg5 harg5 hc0 hc1 x0 x1 xs0)]
  unfold kernelRun0_C
  dsimp only
  try sl_unfold_words
  rw [View.canon_unit_zero hz2, View.readCov_unit_zero (S := S2048x1024) _ hz2]
  simp only [View.readAt_eq_ld, harg2.read_unread, harg3.read_unread, harg5.read_unread, View.ld_unit_zero (S := S2048x512) hz2, View.ld_unit_zero (S := S1024x512) hz2, View.ld_unit_zero (S := S2048x1024) hz2]

end Pieces

/-! ## The blocks, and the accumulator point by point -/

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The accumulator after point `n`: reset and one product at the first step of a block, one more product at the others. -/
def scAt0 (c : Dev nD) : (n : ℕ) → n < cfg0.N → Vec F S2048x1024 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (scAt0 c n (Nat.lt_of_succ_lt hn))

theorem scAt0_first (c : Dev nD) (t : Fin cfg0.N) (h : t.val % 16 = 0) :
    scAt0 V c t.val t.isLt = k0_pay2 (iblk0 V c 0 t) (iblk0 V c 1 t) (k0_pay1 (F := F)) := by
  obtain ⟨n, hn⟩ := t
  cases n with
  | zero => rfl
  | succ n => exact if_pos h

theorem scAt0_next (c : Dev nD) (t : Fin cfg0.N) (h : ¬t.val % 16 = 0) :
    scAt0 V c t.val t.isLt = k0_pay2 (iblk0 V c 0 t) (iblk0 V c 1 t) (scAt0 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: the class's before the first point; afterwards the accumulator at what the point
    before left, the other scoped buffers and the generator register at something. -/
def PhiS0 (c : Dev nD) : (n : ℕ) → n ≤ cfg0.N → sProp 𝕄
  | 0, _ => Pipeline.ΦA spec0 c
  | n + 1, hn => iprop(iprop(owns (c : Thread nD τ) scM0 fullShare (scAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (scAt0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (scAt0 V c (n - 1) (by omega)) ∗ rest0 c) ∗ (∃ r, prngReg c r)) := by
  cases n with
  | zero => exact absurd rfl hz
  | succ n => rfl

/-! ## The proof data -/

/-- The arrays as the region finds them; after the body each input's buffer at its block and the output's at the
    accumulator narrowed (consulted only where the window is live); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (scAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (scAt0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h1 : t.val % 16 = 15
  · -- the last step of a block
    have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [scAt0_next V c t h0]
    rw [PhiS0_castSucc V c t, PhiS0_pos V c _ _ hz]
    iintro ⟨⟨⟨HS0, Hr⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact sread0_C c _ _ _ _ _ _ _ _ _ _ _ _ _ _ _
        iexact Hr
      iexact Hg
    isplitl [Ho]; · iexact Ho
    isplitl [H0]; · iexact H0
    isplitl [H1]; · iexact H1
    unfold owns; iexists _; isplitr
    swap; · iexact H2
    ipureintro; exact oread0_C c _ _ _ _ _ _ _ _ _ _ _ _ _ _ _
  · rw [Dat.leavesExact_idle (dat0 V c) 2 t (idleAt0_2 t (fun h => h1 ((hcond0_1 t).mp h))) (noFlush0_2 t (fun h => h1 ((hcond0_1 t).mp h)))]
    by_cases h0 : t.val % 16 = 0
    · -- the first step of a block: whatever the accumulator held is overwritten
      rw [scAt0_first V c t h0]
      have hrun := (kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact sread0_A c _ _ _ _ _ _ _ _ _ _ _ _ _ _
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hr⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact sread0_A c _ _ _ _ _ _ _ _ _ _ _ _ _ _
            iexact Hr
          iexact Hg
        isplitl [Ho]; · iexact Ho
        isplitl [H0]; · iexact H0
        isplitl [H1]; · iexact H1
        iexists _; iexact H2
    · -- a middle step
      have hz : t.val ≠ 0 := fun h => h0 (by rw [h])
      rw [scAt0_next V c t h0]
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact sread0_B c _ _ _ _ _ _ _ _ _ _ _ _ _ _ _
          iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hr⟩, Hg⟩
  isplitl [HS0 Hr]
  · isplitl [HS0]
    · iexists _; iexact HS0
    iexact Hr
  iexact Hg

end Region

end Cert.KernelIdeal.Hand

end
-- ==== Proof.R1Points.lean ====
/-
  Region 1 (the second matrix product, accumulated over sixteen steps of its contracted axis): where each of the body's two
  conditionals holds on the grid, where the output window is idle, the staging and scratch memrefs by name, and the
  class invariant opened at the scratch accumulator.
-/
import proofs.«140816_j76613626626565_2_alg».proof.Proof.Gen.KernelIdeal.Launch
import proofs.«140816_j76613626626565_2_alg».proof.Proof.Gen.KernelIdeal.Skeleton
import proofs.«140816_j76613626626565_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional (reset the accumulator): the contracted-axis step is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional (store the accumulator out): the contracted-axis step is the last, 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last step the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last step it is live. -/
theorem liveAt1_2 : ∀ t : Fin cfg1.N, cond1_1 (grid1.coords t) → cfg1.idle 2 (grid1.coords t) = false := by decide +kernel

/-! ## The memrefs by name -/

abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x512 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x512 .f32 := Memref.whole cc1_scratch0
abbrev VS1 : View sig .tc .vmem S2048x512 .f32 := scM1.view

/-- The class invariant with the accumulator owned at some contents, the core's other scoped buffers (region 0's) each at something. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.R1Runs.lean ====
/-
  Region 1's body run once per case of its two conditionals over a symbolic grid point: the first step of the contracted
  axis (the accumulator is reset, then the step's product added), a middle step (the product added onto what the
  accumulator held), the last step (the same, then the accumulator stored out). Each run finds the pieces
  the accumulator (and at the last step the output block) ends with.
-/
import proofs.«140816_j76613626626565_2_alg».proof.Proof.R1Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First step: the accumulator, at anything, is reset and the product added; the output block is not touched. -/
noncomputable def kernelRun1_A (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole) (hc0 : cond1_0 i) (hc1 : ¬cond1_1 i)
    (x0 : Vec F S2048x4096 .bf16) (x1 : Vec F S256x512 .f32) :
    { LS0 : List (View.Piece (Elt F) S2048x512 .f32) //
      ∀ (xi2 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm2_kernel i arg2 harg2 arg3 harg3 arg4 harg4 arg5 harg5) K } := by
  refine ⟨?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle step: the product added onto what the accumulator held (`xs0`); the output block is not touched. -/
noncomputable def kernelRun1_B (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole) (hc0 : ¬cond1_0 i) (hc1 : ¬cond1_1 i)
    (x0 : Vec F S2048x4096 .bf16) (x1 : Vec F S256x512 .f32) (xs0 : Vec F S2048x512 .f32) :
    { LS0 : List (View.Piece (Elt F) S2048x512 .f32) //
      ∀ (xi2 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__mm2_kernel i arg2 harg2 arg3 harg3 arg4 harg4 arg5 harg5) K } := by
  refine ⟨?_, fun xi2 E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last step: the product added onto what the accumulator held, and the accumulator stored into the output block. -/
noncomputable def kernelRun1_C (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole) (hc0 : ¬cond1_0 i) (hc1 : cond1_1 i)
    (x0 : Vec F S2048x4096 .bf16) (x1 : Vec F S256x512 .f32) (xs0 : Vec F S2048x512 .f32) :
    Σ' (L2 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__mm2_kernel i arg2 harg2 arg3 harg3 arg4 harg4 arg5 harg5) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R1Frame.lean ====
/-
  Region 1's proof data and body obligation. After grid point t = 16·n + k the accumulator holds the first k + 1 partial
  products of output column block n added in order onto the zero fill; the output window's staging buffer, at the last
  step of each block, the accumulator. The invariant carries the accumulator at that contents from point to point.
-/
import proofs.«140816_j76613626626565_2_alg».proof.Proof.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := funext fun a => by fin_cases a <;> rfl

/-- The columns of the resident left operand that step `i 1` of the contracted axis multiplies: 256 columns from 256·(i 1). -/
def colsAt (i : grid1.Coords) (x0 : Vec F S2048x4096 .bf16) : Vec F S2048x256 .bf16 :=
  View.ld x0 (Rect.unit (s := S2048x4096) (k1_off1 i) S2048x256.size (k1_off1_inb i))

/-! ## What each case's run leaves, as the skeleton's payloads -/

section Pieces
variable (c : Dev nD) (i : grid1.Coords) (arg2 : Memref sig .tc .vmem S2048x4096 .bf16) (harg2 : arg2.IsWhole) (arg3 : Memref sig .tc .vmem S256x512 .f32) (harg3 : arg3.IsWhole) (arg4 : Memref sig .tc .vmem S2048x512 .f32) (harg4 : arg4.IsWhole) (arg5 : Memref sig .tc .vmem S2048x512 .f32) (harg5 : arg5.IsWhole)

theorem scover1_A (hc0 : cond1_0 i) (hc1 : ¬cond1_1 i) (x0 : Vec F S2048x4096 .bf16) (x1 : Vec F S256x512 .f32) (y : S2048x512.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2048x512.size (by sl_kernel_rfl) y

theorem scover1_B (hc0 : ¬cond1_0 i) (hc1 : ¬cond1_1 i) (x0 : Vec F S2048x4096 .bf16) (x1 : Vec F S256x512 .f32) (xs0 : Vec F S2048x512 .f32) (y : S2048x512.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S2048x512.size (by sl_kernel_rfl) y

theorem scover1_C (hc0 : ¬cond1_0 i) (hc1 : cond1_1 i) (x0 : Vec F S2048x4096 .bf16) (x1 : Vec F S256x512 .f32) (xs0 : Vec F S2048x512 .f32) (y : S2048x512.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x512.size (by sl_kernel_rfl) y

theorem cover1_C (hc0 : ¬cond1_0 i) (hc1 : cond1_1 i) (x0 : Vec F S2048x4096 .bf16) (x1 : Vec F S256x512 .f32) (xs0 : Vec F S2048x512 .f32) (y : S2048x512.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x512.size (by sl_kernel_rfl) y

/-- First step: the accumulator ends at the product added onto the zero fill. -/
theorem sread1_A (hc0 : cond1_0 i) (hc1 : ¬cond1_1 i) (x0 : Vec F S2048x4096 .bf16) (x1 : Vec F S256x512 .f32) (f : arg5.view.ty.Contents (Elt F)) :
    arg5.view.read (Elt F) (arg5.view.writes (Elt F) f (kernelRun1_A c i arg2 harg2 arg3 harg3 arg4 harg4 arg5 harg5 hc0 hc1 x0 x1).1) = k1_pay2 (colsAt i x0) x1 (k1_pay1 (F := F)) := by
  rw [View.read_writes_eq_canon _ _ _ (scover1_A c i arg2 harg2 arg3 harg3 arg4 harg4 arg5 harg5 hc0 hc1 x0 x1)]
  unfold kernelRun1_A
  dsimp only
  try sl_unfold_words
  rw [View.canon_cons_unit_zero hz2', View.readCov_unit_zero (S := S2048x512) _ hz2']
  simp only [View.readAt_eq_ld, harg2.read_unread, harg3.read_unread, View.ld_unit_zero (S := S256x512) hz2']
  rfl

/-- A middle step: the product added onto what the accumulator held. -/
theorem sread1_B (hc0 : ¬cond1_0 i) (hc1 : ¬cond1_1 i) (x0 : Vec F S2048x4096 .bf16) (x1 : Vec F S256x512 .f32) (xs0 : Vec F S2048x512 .f32) (f : arg5.view.ty.Contents (Elt F)) :
    arg5.view.read (Elt F) (arg5.view.writes (Elt F) f (kernelRun1_B c i arg2 harg2 arg3 harg3 arg4 harg4 arg5 harg5 hc0 hc1 x0 x1 xs0).1) = k1_pay2 (colsAt i x0) x1 xs0 := by
  rw [View.read_writes_eq_canon _ _ _ (scover1_B c i arg2 harg2 arg3 harg3 arg4 harg4 arg5 harg5 hc0 hc1 x0 x1 xs0)]
  unfold kernelRun1_B
  dsimp only
  try sl_unfold_words
  rw [View.canon_unit_zero hz2']
  simp only [View.readAt_eq_ld, harg2.read_unread, harg3.read_unread, harg5.read_unread, View.ld_unit_zero (S := S256x512) hz2', View.ld_unit_zero (S := S2048x512) hz2']
  rfl

/-- The last step leaves the same in the accumulator, -/
theorem sread1_C (hc0 : ¬cond1_0 i) (hc1 : cond1_1 i) (x0 : Vec F S2048x4096 .bf16) (x1 : Vec F S256x512 .f32) (xs0 : Vec F S2048x512 .f32) (f : arg5.view.ty.Contents (Elt F)) :
    arg5.view.read (Elt F) (arg5.view.writes (Elt F) f (kernelRun1_C c i arg2 harg2 arg3 harg3 arg4 harg4 arg5 harg5 hc0 hc1 x0 x1 xs0).2.1) = k1_pay2 (colsAt i x0) x1 xs0 := by
  rw [View.read_writes_eq_canon _ _ _ (scover1_C c i arg2 harg2 arg3 harg3 arg4 harg4 arg5 harg5 hc0 hc1 x0 x1 xs0)]
  unfold kernelRun1_C
  dsimp only
  try sl_unfold_words
  rw [View.canon_unit_zero hz2']
  simp only [View.readAt_eq_ld, harg2.read_unread, harg3.read_unread, harg5.read_unread, View.ld_unit_zero (S := S256x512) hz2', View.ld_unit_zero (S := S2048x512) hz2']
  rfl

/-- and in the output block. -/
theorem oread1_C (hc0 : ¬cond1_0 i) (hc1 : cond1_1 i) (x0 : Vec F S2048x4096 .bf16) (x1 : Vec F S256x512 .f32) (xs0 : Vec F S2048x512 .f32) (f : arg4.view.ty.Contents (Elt F)) :
    arg4.view.read (Elt F) (arg4.view.writes (Elt F) f (kernelRun1_C c i arg2 harg2 arg3 harg3 arg4 harg4 arg5 harg5 hc0 hc1 x0 x1 xs0).1) = k1_pay2 (colsAt i x0) x1 xs0 := by
  rw [View.read_writes_eq_canon _ _ _ (cover1_C c i arg2 harg2 arg3 harg3 arg4 harg4 arg5 harg5 hc0 hc1 x0 x1 xs0)]
  unfold kernelRun1_C
  dsimp only
  try sl_unfold_words
  rw [View.canon_unit_zero hz2', View.readCov_unit_zero (S := S2048x512) _ hz2']
  simp only [View.readAt_eq_ld, harg2.read_unread, harg3.read_unread, harg5.read_unread, View.ld_unit_zero (S := S256x512) hz2', View.ld_unit_zero (S := S2048x512) hz2']
  rfl

end Pieces

/-! ## The blocks, and the accumulator point by point -/

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One step's update of the accumulator at point `t`. -/
def step1 (c : Dev nD) (t : Fin cfg1.N) (acc : Vec F S2048x512 .f32) : Vec F S2048x512 .f32 :=
  k1_pay2 (colsAt (grid1.coords t) (iblk1 V c 0 t)) (iblk1 V c 1 t) acc

/-- The accumulator after point `n`: reset and one product at the first step of a block, one more product at the others. -/
def scAt1 (c : Dev nD) : (n : ℕ) → n < cfg1.N → Vec F S2048x512 .f32
  | 0, hn => step1 V c ⟨0, hn⟩ (k1_pay1 (F := F))
  | n + 1, hn =>
    if (n + 1) % 16 = 0 then step1 V c ⟨n + 1, hn⟩ (k1_pay1 (F := F))
    else step1 V c ⟨n + 1, hn⟩ (scAt1 c n (Nat.lt_of_succ_lt hn))

theorem scAt1_first (c : Dev nD) (t : Fin cfg1.N) (h : t.val % 16 = 0) :
    scAt1 V c t.val t.isLt = step1 V c t (k1_pay1 (F := F)) := by
  obtain ⟨n, hn⟩ := t
  cases n with
  | zero => rfl
  | succ n => exact if_pos h

theorem scAt1_next (c : Dev nD) (t : Fin cfg1.N) (h : ¬t.val % 16 = 0) :
    scAt1 V c t.val t.isLt = step1 V c t (scAt1 V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: the class's before the first point; afterwards the accumulator at what the point
    before left, the other scoped buffers and the generator register at something. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (scAt1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (scAt1 V c (n - 1) (by omega))) ∗ (∃ r, prngReg c r)) := by
  cases n with
  | zero => exact absurd rfl hz
  | succ n => rfl

/-! ## The proof data -/

/-- The arrays as the region finds them; after the body each input's buffer at its block and the output's at the
    accumulator (consulted only where the window is live); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => scAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = scAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  by_cases h1 : t.val % 16 = 15
  · -- the last step of a block
    have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [scAt1_next V c t h0]
    unfold step1
    rw [PhiS1_castSucc V c t, PhiS1_pos V c _ _ hz]
    iintro ⟨⟨⟨R0, R1, R2, R3, R4, R5, R6, HS0⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitr [Ho H0 H1 H2]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS0
        ipureintro; exact sread1_C c _ _ _ _ _ _ _ _ _ _ _ _ _ _ _
      iexact Hg
    isplitl [Ho]; · iexact Ho
    isplitl [H0]; · iexact H0
    isplitl [H1]; · iexact H1
    unfold owns; iexists _; isplitr
    swap; · iexact H2
    ipureintro; exact oread1_C c _ _ _ _ _ _ _ _ _ _ _ _ _ _ _
  · rw [Dat.leavesExact_idle (dat1 V c) 2 t (idleAt1_2 t (fun h => h1 ((hcond1_1 t).mp h))) (noFlush1_2 t (fun h => h1 ((hcond1_1 t).mp h)))]
    by_cases h0 : t.val % 16 = 0
    · -- the first step of a block: whatever the accumulator held is overwritten
      rw [scAt1_first V c t h0]
      unfold step1
      have hrun := (kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2
      by_cases hz : t.val = 0
      · rw [PhiS1_castSucc V c t, PhiS1_zero V c _ _ hz, PhiA1_eq]
        iintro ⟨⟨⟨R0, R1, R2, R3, R4, R5, R6, HS0⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexact HS0
        iintro ⟨H0, H1, H2, ⟨%es0, HS0⟩⟩
        isplitr [Ho H0 H1 H2]
        · isplitr [Hg]
          · isplitl [R0]; · iexact R0
            isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact sread1_A c _ _ _ _ _ _ _ _ _ _ _ _ _ _
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨R0, R1, R2, R3, R4, R5, R6, HS0⟩, Hg⟩, Ho, ⟨%d0, H0⟩, ⟨%d1, H1⟩, ⟨%d2, H2⟩⟩
        iapply (hrun _ Set.univ _)
        isplitl [H0]; · iexact H0
        isplitl [H1]; · iexact H1
        isplitl [H2]; · iexact H2
        isplitl [HS0]; · iexists _; iexact HS0
        iintro ⟨H0, H1, H2, ⟨%es0, HS0⟩⟩
        isplitr [Ho H0 H1 H2]
        · isplitr [Hg]
          · isplitl [R0]; · iexact R0
            isplitl [R1]; · iexact R1
            isplitl [R2]; · iexact R2
            isplitl [R3]; · iexact R3
            isplitl [R4]; · iexact R4
            isplitl [R5]; · iexact R5
            isplitl [R6]; · iexact R6
            unfold owns; iexists _; isplitr
            swap; · iexact HS0
            ipureintro; exact sread1_A c _ _ _ _ _ _ _ _ _ _ _ _ _ _
          iexact Hg
        isplitl [Ho]; · iexact Ho
        isplitl [H0]; · iexact H0
        isplitl [H1]; · iexact H1
        iexists _; iexact H2
    · -- a middle step
      have hz : t.val ≠ 0 := fun h => h0 (by rw [h])
      rw [scAt1_next V c t h0]
      unfold step1
      rw [PhiS1_castSucc V c t, PhiS1_pos V c _ _ hz]
      iintro ⟨⟨⟨R0, R1, R2, R3, R4, R5, R6, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitr [Ho H0 H1 H2]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact sread1_B c _ _ _ _ _ _ _ _ _ _ _ _ _ _ _
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨R0, R1, R2, R3, R4, R5, R6, HS0⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS0
  iexact Hg

end Region

end Cert.KernelIdeal.Hand

end
-- ==== Proof.Run.lean ====
/-
  The whole run of @main: nine host operations (the row means of the second argument subtracted from it, narrowed), then the
  two kernel regions, as a list of segments. Between segments the core holds every unscoped buffer at contents
  named by a fold from the launch memory: after the host operations their composed term; after a region its arrays at
  what its write-backs leave, every other buffer untouched. Every weakly fair execution terminates with every
  unscoped buffer at the last fold's contents.
-/
import proofs.«140816_j76613626626565_2_alg».proof.Proof.R0Frame
import proofs.«140816_j76613626626565_2_alg».proof.Proof.R1Frame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev Vin0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: region 0's exit contents, which region 1 is entered from. -/
abbrev Vin1 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vin1 m ρ c (Pipeline.arrRef spec0 w) :=
  (W2_arr m ρ c w).symm
theorem hrest0 (c : Dev nD) : ∀ b, b ∉ Finset.univ.image (Pipeline.arrRef spec0) → Vin1 m ρ c b = Vin0 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (Vin1 m ρ) c).arrAt w cfg1.N
theorem W3_arr (c : Dev nD) (w : Fin cfg1.W) :
    W3 m ρ c (Proc.devRef .tc (Pipeline.arrRef spec1 w)) = (dat1 (Vin1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev Vend : (c : Dev nD) → (b : Ref sig .tc) → Buf (Elt F) ((c : Thread nD τ).loc b) := fun c b => W3 m ρ c b
theorem hF1 (c : Dev nD) (w : Fin cfg1.W) : (dat1 (Vin1 m ρ) c).arrAt w cfg1.N = Vend m ρ c (Pipeline.arrRef spec1 w) :=
  (W3_arr m ρ c w).symm
theorem hrest1 (c : Dev nD) : ∀ b, b ∉ Finset.univ.image (Pipeline.arrRef spec1) → Vend m ρ c b = Vin1 m ρ c b :=
  fun b hb => W3_of_ne m ρ c b fun w e => hb (Finset.mem_image.mpr ⟨w, Finset.mem_univ _, e⟩)

/-! ### The arguments end as launched -/

theorem hostOps0_keeps (c : Dev nD) (b : Ref sig .tc) (hb : b ∉ ([main_cst, main_v0, main_v1, main_cst_0, main_v2, main_v3, main_v4, main_v5, main_v6] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [List.mem_cons, List.mem_nil_iff, or_false, not_or] at hb
    obtain ⟨h0, h1, h2, h3, h4, h5, h6, h7, h8⟩ := hb
    simp only [hostOps0, List.Forall, StableHlo.nullary_writes, StableHlo.unary_writes, StableHlo.binary_writes, Finset.mem_singleton]
    repeat' apply And.intro
    all_goals exact StableHlo.devRef_ne_of_ne ‹_›))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 1).trans (((dat1 (Vin1 m ρ) c).arrAt_in 1 rfl _).trans (A_eq1 (Vin1 m ρ) c 1))
    _ = W1 m ρ c (Proc.devRef .tc main_arg0) := (W2_arr m ρ c 1).trans (((dat0 (Vin0 m ρ) c).arrAt_in 1 rfl _).trans (A_eq0 (Vin0 m ρ) c 1))
    _ = W0 m ρ c (Proc.devRef .tc main_arg0) := hostOps0_keeps m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := hostOps0_keeps m ρ c main_arg1 (by decide)
    _ = m ((c : Thread nD τ).loc main_arg1) := rfl

/-- The result's buffer ends at what region 1's write-backs leave in its output window's array. -/
theorem W3_main_v8 (c : Dev nD) : W3 m ρ c (Proc.devRef .tc main_v8) = (dat1 (Vin1 m ρ) c).arrAt 2 cfg1.N :=
  W3_arr m ρ c 2

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m ρ) c)
    unfold Pipeline.ΦA
    iintro ⟨Hp, -, Hr⟩
    isplitl [Hr]; · iexact Hr
    iexact Hp
  hout c := by
    rw [Pipeline.ownSems0_none]
    refine BIBase.Entails.trans (hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vin1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m ρ) c)
    unfold Pipeline.ΦA
    iintro ⟨Hp, -, Hr⟩
    isplitl [Hr]; · iexact Hr
    iexact Hp
  hout c := by
    rw [Pipeline.ownSems0_none]
    refine BIBase.Entails.trans (hout1 (Vin1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vend m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- At the compiled mesh, from any memory with zero counters: every weakly fair execution of @main on the TensorCores
    terminates, nothing faulting, and every final state has every unscoped buffer of every core at the last boundary's
    contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run, read at the arguments and the result: the arguments end as launched, the result at what region 1's
    write-backs leave in its output array. -/
theorem run_read : θ_run defs (onTc (τ := τ) (main (F := F))) ⟨m, fun _ => 0, ρ⟩ (fun r => ∀ c : Dev nD,
      r.2.mem ((c.tc : Thread nD τ).loc main_v8) = (dat1 (Vin1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v8 (by decide))).trans (W3_main_v8 m ρ c),
     (h c _ (mem_uc main_arg0 (by decide))).trans (W3_main_arg0 m ρ c),
     (h c _ (mem_uc main_arg1 (by decide))).trans (W3_main_arg1 m ρ c)⟩) (run_main m ρ)

/-- The frame: every execution terminates, nothing faulting, the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_read m ρ)

end Cert.KernelIdeal.Hand

end
-- ==== Proof.Val0.lean ====
/-
  What region 0 computes, at the ideal values. One step of the body adds to the accumulator, at row o and column j, the
  sum over the 512 positions q of the step's slab of the left operand at (o, q) times the right operand's block at (j, q).
  After point 16·d + k the accumulator at (o, j) is therefore the sum, over the slabs 0 … k and the positions inside each,
  of the left operand's row o times row 1024·d + j of the right operand — the partial dot product of the two rows.
-/
import proofs.«140816_j76613626626565_2_alg».proof.Proof.R0Frame
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open BigOperators

/-! ## One step of the body at an index -/

theorem lhs0_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs0_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs0_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs0_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- One accumulation step at row `o`, column `j`: what the accumulator held plus the dot product of row `o` of the
    left slab and row `j` of the right block. -/
theorem pay2_apply0 (a : Vec Ideal S2048x512 .bf16) (b : Vec Ideal S1024x512 .f32) (acc : Vec Ideal S2048x1024 .f32)
    (o : Fin 2048) (j : Fin 1024) :
    k0_pay2 (F := Ideal) a b acc (ix2 o j) = acc (ix2 o j) + ∑ q : Fin 512, a (ix2 o q) * b (ix2 j q) := by
  unfold k0_pay2
  simp only [shapeCast_self, matmul]
  rw [addf_apply, Ideal.matmul_constant_zero_apply, ← Equiv.sum_comp (ValueIdx.contrEquiv1 dot_S2048x512_S1024x512_S2048x1024_1_1_0_0_n_n 512 rfl rfl).symm]
  refine congrArg (_ + ·) (Finset.sum_congr rfl fun k _ => ?_)
  have hk := ValueIdx.contrEquiv1_symm_val dot_S2048x512_S1024x512_S2048x1024_1_1_0_0_n_n 512 rfl rfl k
  have el : dot_S2048x512_S1024x512_S2048x1024_1_1_0_0_n_n.lhsIdx (ix2 o j) ((ValueIdx.contrEquiv1 dot_S2048x512_S1024x512_S2048x1024_1_1_0_0_n_n 512 rfl rfl).symm k) = ix2 o k := funext fun a => Fin.ext (by
    match a with
    | ⟨0, _⟩ => exact lhs0_0 _ _
    | ⟨1, _⟩ => exact (lhs0_1 _ _).trans hk)
  have er : dot_S2048x512_S1024x512_S2048x1024_1_1_0_0_n_n.rhsIdx (ix2 o j) ((ValueIdx.contrEquiv1 dot_S2048x512_S1024x512_S2048x1024_1_1_0_0_n_n 512 rfl rfl).symm k) = ix2 j k := funext fun a => Fin.ext (by
    match a with
    | ⟨0, _⟩ => exact rhs0_0 _ _
    | ⟨1, _⟩ => exact (rhs0_1 _ _).trans hk)
  rw [el, er]
  rfl

/-- The zero fill reads zero. -/
theorem pay1_apply0 (i : S2048x1024.Idx) : k0_pay1 (F := Ideal) i = 0 := by
  unfold k0_pay1
  simp only [shapeCast_self]
  show Ideal.ofBits .f32 0x00000000#32 = 0
  exact Ideal.ofBits_zero_f32

/-! ## The blocks at an index -/

theorem idx0_0 : ∀ t : Fin cfg0.N, win0_0.index t (0 : Fin 2) = 0 ∧ win0_0.index t (1 : Fin 2) = t.val % 16 :=
  (by decide +kernel : ∀ t : Fin grid0.N, win0_0.index t (0 : Fin 2) = 0 ∧ win0_0.index t (1 : Fin 2) = t.val % 16)
theorem idx0_1 : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)
theorem idx0_2 : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

section Value
variable (V : (c : Dev nD) → (b : Ref sig .tc) → Buf (Elt Ideal) ((c : Thread nD τ).loc b)) (c : Dev nD)

/-- The left operand's slab at step `t mod 16`: all rows, columns 512·(t mod 16) onwards. -/
theorem iblk0_0_apply (t : Fin cfg0.N) (x : S2048x512.Idx) (k : S2048x8192.Idx)
    (hk0 : (k 0).val = (x 0).val) (hk1 : (k 1).val = 512 * (t.val % 16) + (x 1).val) :
    (iblk0 V c 0 t : Vec Ideal S2048x512 .bf16) x = (V c main_v6 : S2048x8192.Idx → Elt Ideal .bf16) k := by
  have hi := idx0_0 t
  unfold iblk0
  rw [View.read_apply]
  show V c main_v6 _ = V c main_v6 _
  congr 1
  funext a
  apply Fin.ext
  match a with
  | ⟨0, _⟩ => show win0_0.index t 0 * 2048 + 1 * (x 0).val = (k 0).val; rw [hi.1, hk0]; omega
  | ⟨1, _⟩ => show win0_0.index t 1 * 512 + 1 * (x 1).val = (k 1).val; rw [hi.2, hk1]; omega

/-- The right operand's block: rows 1024·(t div 16) onwards, columns 512·(t mod 16) onwards. -/
theorem iblk0_1_apply (t : Fin cfg0.N) (x : S1024x512.Idx) (k : S4096x8192.Idx)
    (hk0 : (k 0).val = 1024 * (t.val / 16) + (x 0).val) (hk1 : (k 1).val = 512 * (t.val % 16) + (x 1).val) :
    (iblk0 V c 1 t : Vec Ideal S1024x512 .f32) x = (V c main_arg0 : S4096x8192.Idx → Elt Ideal .f32) k := by
  have hi := idx0_1 t
  unfold iblk0
  rw [View.read_apply]
  show V c main_arg0 _ = V c main_arg0 _
  congr 1
  funext a
  apply Fin.ext
  match a with
  | ⟨0, _⟩ => show win0_1.index t 0 * 1024 + 1 * (x 0).val = (k 0).val; rw [hi.1, hk0]; omega
  | ⟨1, _⟩ => show win0_1.index t 1 * 512 + 1 * (x 1).val = (k 1).val; rw [hi.2, hk1]; omega

/-- Row `o` of the left operand times row `d` of the right one at position `n` of the contracted axis (zero past its end). -/
def rowdot0 (A : S2048x8192.Idx → EReal) (X : S4096x8192.Idx → EReal) (o : Fin 2048) (d : Fin 4096) (n : ℕ) : EReal :=
  if h : n < 8192 then A (ix2 o ⟨n, h⟩) * X (ix2 d ⟨n, h⟩) else 0

/-- One term of a step's dot product is the rows' product at the step's position. -/
theorem step0_term (t : Fin cfg0.N) (o : Fin 2048) (j : Fin 1024) (d : Fin 4096) (hd : d.val = 1024 * (t.val / 16) + j.val)
    (a : Vec Ideal S2048x512 .bf16) (b : Vec Ideal S1024x512 .f32) (ha : a = iblk0 V c 0 t) (hb : b = iblk0 V c 1 t) (q : Fin 512) :
    a (ix2 o q) * b (ix2 j q) = rowdot0 (V c main_v6) (V c main_arg0) o d (512 * (t.val % 16) + q.val) := by
  have hq : 512 * (t.val % 16) + q.val < 8192 := by have := q.isLt; omega
  subst ha hb
  unfold rowdot0
  rw [dif_pos hq]
  rw [iblk0_0_apply V c t (ix2 o q) (ix2 o ⟨512 * (t.val % 16) + q.val, hq⟩) rfl rfl,
    iblk0_1_apply V c t (ix2 j q) (ix2 d ⟨512 * (t.val % 16) + q.val, hq⟩) hd rfl]

/-- THE ACCUMULATOR after point `n`, at row `o` and column `j`: the partial dot product of row `o` of the left operand
    and row 1024·(n div 16) + j of the right one over the slabs 0 … n mod 16. -/
theorem scAt0_val : ∀ (n : ℕ) (hn : n < cfg0.N) (o : Fin 2048) (j : Fin 1024) (d : Fin 4096), d.val = 1024 * (n / 16) + j.val →
    scAt0 V c n hn (ix2 o j) = ∑ s ∈ Finset.range (n % 16 + 1), ∑ q : Fin 512, rowdot0 (V c main_v6) (V c main_arg0) o d (512 * s + q.val) := by
  intro n
  induction n with
  | zero =>
    intro hn o j d hd
    rw [show scAt0 V c 0 hn = _ from scAt0_first V c ⟨0, hn⟩ rfl, pay2_apply0, pay1_apply0, zero_add]
    rw [show (0 % 16 + 1) = 1 from rfl, Finset.sum_range_one]
    exact Finset.sum_congr rfl fun q _ => step0_term V c ⟨0, hn⟩ o j d hd _ _ rfl rfl q
  | succ n ih =>
    intro hn o j d hd
    by_cases h : (n + 1) % 16 = 0
    · rw [show scAt0 V c (n + 1) hn = _ from scAt0_first V c ⟨n + 1, hn⟩ h, pay2_apply0, pay1_apply0, zero_add]
      rw [h, Finset.sum_range_one]
      refine Finset.sum_congr rfl fun q _ => ?_
      have e := step0_term V c ⟨n + 1, hn⟩ o j d hd _ _ rfl rfl q
      rw [show (⟨n + 1, hn⟩ : Fin cfg0.N).val % 16 = 0 from h] at e
      exact e
    · have hm : (n + 1) % 16 = n % 16 + 1 := by omega
      have hdv : (n + 1) / 16 = n / 16 := by omega
      rw [show scAt0 V c (n + 1) hn = _ from scAt0_next V c ⟨n + 1, hn⟩ h, pay2_apply0]
      rw [hm, Finset.sum_range_succ]
      congr 1
      · exact ih (Nat.lt_of_succ_lt hn) o j d (by rw [hd, hdv])
      · refine Finset.sum_congr rfl fun q _ => ?_
        have e := step0_term V c ⟨n + 1, hn⟩ o j d hd _ _ rfl rfl q
        rw [show (⟨n + 1, hn⟩ : Fin cfg0.N).val % 16 = n % 16 + 1 from hm] at e
        exact e

/-! ## The array region 0 leaves -/

/-- The first product: at (o, d) the dot product of row `o` of the left operand and row `d` of the right one, summed slab by slab. -/
def prod0 (A : S2048x8192.Idx → EReal) (X : S4096x8192.Idx → EReal) : S2048x4096.Idx → EReal := fun i =>
  ∑ s ∈ Finset.range 16, ∑ q : Fin 512, rowdot0 A X (i 0) (i 1) (512 * s + q.val)

/-- What a write-back writes is its block of the product. -/
theorem flushed0_eq (t : Fin cfg0.N) (hf : (cfg0.win 2).flush t = true) :
    (dat0 V c).flushed 2 t = ((cfg0.win 2).blk t).view.read (Elt Ideal) (prod0 (V c main_v6) (V c main_arg0)) := by
  have h15 : t.val % 16 = 15 := (flush0_2 t).mp hf
  have hN : t.val < 64 := lt_of_lt_of_eq t.isLt N_0
  have hi := idx0_2 t
  show (cfg0.win 2).cut (grid0.coords t) ((dat0 V c).after 2 t) = _
  rw [after0_2]
  show (scAt0 V c t.val t.isLt : S2048x1024.Idx → EReal) = fun x : S2048x1024.Idx => prod0 (V c main_v6) (V c main_arg0) (((cfg0.win 2).blk t).view.emb x)
  funext x
  obtain ⟨p, q, rfl⟩ : ∃ (p : Fin 2048) (q : Fin 1024), x = ix2 p q := ⟨x 0, x 1, eq_ix2 x⟩
  have hq1 : q.val < 1024 := q.isLt
  have hd : 1024 * (t.val / 16) + q.val < 4096 := by omega
  rw [scAt0_val V c t.val t.isLt p q ⟨1024 * (t.val / 16) + q.val, hd⟩ rfl, h15]
  unfold prod0
  have e0 : (((cfg0.win 2).blk t).view.emb (ix2 p q)) 0 = p := Fin.ext (by
    show win0_2.index t 0 * 2048 + 1 * p.val = p.val; rw [hi.1]; omega)
  have e1 : (((cfg0.win 2).blk t).view.emb (ix2 p q)) 1 = ⟨1024 * (t.val / 16) + q.val, hd⟩ := Fin.ext (by
    show win0_2.index t 1 * 1024 + 1 * q.val = 1024 * (t.val / 16) + q.val; rw [hi.2]; omega)
  rw [e0, e1]
  rfl

theorem mem_blk0 (t : Fin cfg0.N) (i : S2048x4096.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v7).slice (win0_2.rect t)).set ↔ _
  rw [View.set_slice_whole, Rect.mem_set_unit]
  exact Iff.rfl

/-- After the region its output array is the product: the write-back at the last step of column block d covers columns 1024·d onwards. -/
theorem final0 : (dat0 V c).arrAt 2 cfg0.N = prod0 (V c main_v6) (V c main_arg0) :=
  (dat0 V c).arrAt_eq_of_cover 2 (prod0 (V c main_v6) (V c main_arg0)) (flushed0_eq V c) fun i => by
    have hi0 : (i 0).val < 2048 := (i 0).isLt
    have hi1 : (i 1).val < 4096 := (i 1).isLt
    have hN : cfg0.N = 64 := N_0
    let t : Fin cfg0.N := ⟨16 * ((i 1).val / 1024) + 15, by rw [hN]; omega⟩
    have ht : t.val = 16 * ((i 1).val / 1024) + 15 := rfl
    have hidx := idx0_2 t
    refine ⟨t, (flush0_2 t).mpr (by rw [ht]; omega), ?_⟩
    rw [mem_blk0]
    intro a
    match a with
    | ⟨0, _⟩ => show win0_2.index t 0 * 2048 ≤ (i 0).val ∧ (i 0).val < win0_2.index t 0 * 2048 + 2048; rw [hidx.1]; omega
    | ⟨1, _⟩ => show win0_2.index t 1 * 1024 ≤ (i 1).val ∧ (i 1).val < win0_2.index t 1 * 1024 + 1024; rw [hidx.2, ht]; omega

end Value

end Cert.KernelIdeal.Hand

end
-- ==== Proof.Val1.lean ====
/-
  What region 1 computes, at the ideal values. One step of the body adds to the accumulator, at row o and column j, the
  sum over the 256 positions q of the step's columns of the resident left operand at (o, q) times the right operand's
  block at (q, j). After point 16·b + k the accumulator at (o, j) is therefore the sum, over the column groups 0 … k
  and the positions inside each, of the left operand's row o times column 512·b + j of the right operand.
-/
import proofs.«140816_j76613626626565_2_alg».proof.Proof.R1Frame
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open BigOperators

/-! ## One step of the body at an index -/

theorem lhs1_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs1_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs1_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs1_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- One accumulation step at row `o`, column `j`: what the accumulator held plus the dot product of row `o` of the
    left columns and column `j` of the right block. -/
theorem pay2_apply1 (a : Vec Ideal S2048x256 .bf16) (b : Vec Ideal S256x512 .f32) (acc : Vec Ideal S2048x512 .f32)
    (o : Fin 2048) (j : Fin 512) :
    k1_pay2 (F := Ideal) a b acc (ix2 o j) = acc (ix2 o j) + ∑ q : Fin 256, a (ix2 o q) * b (ix2 q j) := by
  unfold k1_pay2
  simp only [shapeCast_self, matmul]
  rw [addf_apply, Ideal.matmul_constant_zero_apply, ← Equiv.sum_comp (ValueIdx.contrEquiv1 dot_S2048x256_S256x512_S2048x512_1_0_0_1_n_n 256 rfl rfl).symm]
  refine congrArg (_ + ·) (Finset.sum_congr rfl fun k _ => ?_)
  have hk := ValueIdx.contrEquiv1_symm_val dot_S2048x256_S256x512_S2048x512_1_0_0_1_n_n 256 rfl rfl k
  have el : dot_S2048x256_S256x512_S2048x512_1_0_0_1_n_n.lhsIdx (ix2 o j) ((ValueIdx.contrEquiv1 dot_S2048x256_S256x512_S2048x512_1_0_0_1_n_n 256 rfl rfl).symm k) = ix2 o k := funext fun a => Fin.ext (by
    match a with
    | ⟨0, _⟩ => exact lhs1_0 _ _
    | ⟨1, _⟩ => exact (lhs1_1 _ _).trans hk)
  have er : dot_S2048x256_S256x512_S2048x512_1_0_0_1_n_n.rhsIdx (ix2 o j) ((ValueIdx.contrEquiv1 dot_S2048x256_S256x512_S2048x512_1_0_0_1_n_n 256 rfl rfl).symm k) = ix2 k j := funext fun a => Fin.ext (by
    match a with
    | ⟨0, _⟩ => exact (rhs1_0 _ _).trans hk
    | ⟨1, _⟩ => exact rhs1_1 _ _)
  rw [el, er]
  rfl

/-- The zero fill reads zero. -/
theorem pay1_apply1 (i : S2048x512.Idx) : k1_pay1 (F := Ideal) i = 0 := by
  unfold k1_pay1
  simp only [shapeCast_self]
  show Ideal.ofBits .f32 0x00000000#32 = 0
  exact Ideal.ofBits_zero_f32

/-! ## The blocks at an index -/

theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem idx1_1 : ∀ t : Fin cfg1.N, win1_1.index t (0 : Fin 2) = t.val % 16 ∧ win1_1.index t (1 : Fin 2) = t.val / 16 :=
  (by decide +kernel : ∀ t : Fin grid1.N, win1_1.index t (0 : Fin 2) = t.val % 16 ∧ win1_1.index t (1 : Fin 2) = t.val / 16)
theorem idx1_2 : ∀ t : Fin cfg1.N, win1_2.index t (0 : Fin 2) = 0 ∧ win1_2.index t (1 : Fin 2) = t.val / 16 :=
  (by decide +kernel : ∀ t : Fin grid1.N, win1_2.index t (0 : Fin 2) = 0 ∧ win1_2.index t (1 : Fin 2) = t.val / 16)
/-- The offsets of the body's load from the resident left operand: row 0, column 256·(t mod 16). -/
theorem off1 : ∀ t : Fin cfg1.N, k1_off1 (grid1.coords t) (0 : Fin 2) = 0 ∧ k1_off1 (grid1.coords t) (1 : Fin 2) = 256 * (t.val % 16) :=
  (by decide +kernel : ∀ t : Fin grid1.N, k1_off1 (grid1.coords t) (0 : Fin 2) = 0 ∧ k1_off1 (grid1.coords t) (1 : Fin 2) = 256 * (t.val % 16))

section Value
variable (V : (c : Dev nD) → (b : Ref sig .tc) → Buf (Elt Ideal) ((c : Thread nD τ).loc b)) (c : Dev nD)

/-- The columns a step multiplies, read at an index of the whole operand. -/
theorem colsAt_apply (t : Fin cfg1.N) (x0 : Vec Ideal S2048x4096 .bf16) (y : S2048x256.Idx) (k : S2048x4096.Idx)
    (hk0 : (k 0).val = (y 0).val) (hk1 : (k 1).val = 256 * (t.val % 16) + (y 1).val) :
    colsAt (grid1.coords t) x0 y = x0 k := by
  have ho := off1 t
  unfold colsAt
  show x0 _ = x0 k
  congr 1
  funext a
  apply Fin.ext
  match a with
  | ⟨0, _⟩ => show k1_off1 (grid1.coords t) 0 + 1 * (y 0).val = (k 0).val; rw [ho.1, hk0]; omega
  | ⟨1, _⟩ => show k1_off1 (grid1.coords t) 1 + 1 * (y 1).val = (k 1).val; rw [ho.2, hk1]; omega

/-- The resident left operand is the whole array. -/
theorem iblk1_0_apply (t : Fin cfg1.N) (x : S2048x4096.Idx) :
    (iblk1 V c 0 t : Vec Ideal S2048x4096 .bf16) x = (V c main_v7 : S2048x4096.Idx → Elt Ideal .bf16) x := by
  have hi := idx1_0 t
  unfold iblk1
  rw [View.read_apply]
  show V c main_v7 _ = V c main_v7 _
  congr 1
  funext a
  apply Fin.ext
  match a with
  | ⟨0, _⟩ => show win1_0.index t 0 * 2048 + 1 * (x 0).val = (x 0).val; rw [hi.1]; omega
  | ⟨1, _⟩ => show win1_0.index t 1 * 4096 + 1 * (x 1).val = (x 1).val; rw [hi.2]; omega

/-- The right operand's block: rows 256·(t mod 16) onwards, columns 512·(t div 16) onwards. -/
theorem iblk1_1_apply (t : Fin cfg1.N) (x : S256x512.Idx) (k : S4096x8192.Idx)
    (hk0 : (k 0).val = 256 * (t.val % 16) + (x 0).val) (hk1 : (k 1).val = 512 * (t.val / 16) + (x 1).val) :
    (iblk1 V c 1 t : Vec Ideal S256x512 .f32) x = (V c main_arg0 : S4096x8192.Idx → Elt Ideal .f32) k := by
  have hi := idx1_1 t
  unfold iblk1
  rw [View.read_apply]
  show V c main_arg0 _ = V c main_arg0 _
  congr 1
  funext a
  apply Fin.ext
  match a with
  | ⟨0, _⟩ => show win1_1.index t 0 * 256 + 1 * (x 0).val = (k 0).val; rw [hi.1, hk0]; omega
  | ⟨1, _⟩ => show win1_1.index t 1 * 512 + 1 * (x 1).val = (k 1).val; rw [hi.2, hk1]; omega

/-- Row `o` of the left operand times column `n` of the right one at position `p` of the contracted axis (zero past its end). -/
def coldot1 (T : S2048x4096.Idx → EReal) (X : S4096x8192.Idx → EReal) (o : Fin 2048) (n : Fin 8192) (p : ℕ) : EReal :=
  if h : p < 4096 then T (ix2 o ⟨p, h⟩) * X (ix2 ⟨p, h⟩ n) else 0

/-- One term of a step's dot product is the row and column's product at the step's position. -/
theorem step1_term (t : Fin cfg1.N) (o : Fin 2048) (j : Fin 512) (n : Fin 8192) (hn : n.val = 512 * (t.val / 16) + j.val)
    (a : Vec Ideal S2048x4096 .bf16) (b : Vec Ideal S256x512 .f32) (ha : a = iblk1 V c 0 t) (hb : b = iblk1 V c 1 t) (q : Fin 256) :
    colsAt (grid1.coords t) a (ix2 o q) * b (ix2 q j)
      = coldot1 (V c main_v7) (V c main_arg0) o n (256 * (t.val % 16) + q.val) := by
  have hq : 256 * (t.val % 16) + q.val < 4096 := by have := q.isLt; omega
  subst ha hb
  unfold coldot1
  rw [dif_pos hq]
  rw [colsAt_apply t _ (ix2 o q) (ix2 o ⟨256 * (t.val % 16) + q.val, hq⟩) rfl rfl, iblk1_0_apply V c t,
    iblk1_1_apply V c t (ix2 q j) (ix2 ⟨256 * (t.val % 16) + q.val, hq⟩ n) rfl hn]

/-- THE ACCUMULATOR after point `n`, at row `o` and column `j`: the partial dot product of row `o` of the left operand
    and column 512·(n div 16) + j of the right one over the column groups 0 … n mod 16. -/
theorem scAt1_val : ∀ (n : ℕ) (hn : n < cfg1.N) (o : Fin 2048) (j : Fin 512) (d : Fin 8192), d.val = 512 * (n / 16) + j.val →
    scAt1 V c n hn (ix2 o j) = ∑ s ∈ Finset.range (n % 16 + 1), ∑ q : Fin 256, coldot1 (V c main_v7) (V c main_arg0) o d (256 * s + q.val) := by
  intro n
  induction n with
  | zero =>
    intro hn o j d hd
    rw [show scAt1 V c 0 hn = _ from scAt1_first V c ⟨0, hn⟩ rfl]
    unfold step1
    rw [pay2_apply1, pay1_apply1, zero_add]
    rw [show (0 % 16 + 1) = 1 from rfl, Finset.sum_range_one]
    exact Finset.sum_congr rfl fun q _ => step1_term V c ⟨0, hn⟩ o j d hd _ _ rfl rfl q
  | succ n ih =>
    intro hn o j d hd
    by_cases h : (n + 1) % 16 = 0
    · rw [show scAt1 V c (n + 1) hn = _ from scAt1_first V c ⟨n + 1, hn⟩ h]
      unfold step1
      rw [pay2_apply1, pay1_apply1, zero_add]
      rw [h, Finset.sum_range_one]
      refine Finset.sum_congr rfl fun q _ => ?_
      have e := step1_term V c ⟨n + 1, hn⟩ o j d hd _ _ rfl rfl q
      rw [show (⟨n + 1, hn⟩ : Fin cfg1.N).val % 16 = 0 from h] at e
      exact e
    · have hm : (n + 1) % 16 = n % 16 + 1 := by omega
      have hdv : (n + 1) / 16 = n / 16 := by omega
      rw [show scAt1 V c (n + 1) hn = _ from scAt1_next V c ⟨n + 1, hn⟩ h]
      unfold step1
      rw [pay2_apply1]
      rw [hm, Finset.sum_range_succ]
      congr 1
      · exact ih (Nat.lt_of_succ_lt hn) o j d (by rw [hd, hdv])
      · refine Finset.sum_congr rfl fun q _ => ?_
        have e := step1_term V c ⟨n + 1, hn⟩ o j d hd _ _ rfl rfl q
        rw [show (⟨n + 1, hn⟩ : Fin cfg1.N).val % 16 = n % 16 + 1 from hm] at e
        exact e

/-! ## The array region 1 leaves -/

/-- The second product: at (o, n) the dot product of row `o` of the left operand and column `n` of the right one, summed group by group. -/
def prod1 (T : S2048x4096.Idx → EReal) (X : S4096x8192.Idx → EReal) : S2048x8192.Idx → EReal := fun i =>
  ∑ s ∈ Finset.range 16, ∑ q : Fin 256, coldot1 T X (i 0) (i 1) (256 * s + q.val)

/-- What a write-back writes is its block of the product. -/
theorem flushed1_eq (t : Fin cfg1.N) (hf : (cfg1.win 2).flush t = true) :
    (dat1 V c).flushed 2 t = ((cfg1.win 2).blk t).view.read (Elt Ideal) (prod1 (V c main_v7) (V c main_arg0)) := by
  have h15 : t.val % 16 = 15 := (flush1_2 t).mp hf
  have hN : t.val < 256 := lt_of_lt_of_eq t.isLt N_1
  have hi := idx1_2 t
  show (cfg1.win 2).cut (grid1.coords t) ((dat1 V c).after 2 t) = _
  rw [after1_2]
  show (scAt1 V c t.val t.isLt : S2048x512.Idx → EReal) = fun x : S2048x512.Idx => prod1 (V c main_v7) (V c main_arg0) (((cfg1.win 2).blk t).view.emb x)
  funext x
  obtain ⟨p, q, rfl⟩ : ∃ (p : Fin 2048) (q : Fin 512), x = ix2 p q := ⟨x 0, x 1, eq_ix2 x⟩
  have hq1 : q.val < 512 := q.isLt
  have hd : 512 * (t.val / 16) + q.val < 8192 := by omega
  rw [scAt1_val V c t.val t.isLt p q ⟨512 * (t.val / 16) + q.val, hd⟩ rfl, h15]
  unfold prod1
  have e0 : (((cfg1.win 2).blk t).view.emb (ix2 p q)) 0 = p := Fin.ext (by
    show win1_2.index t 0 * 2048 + 1 * p.val = p.val; rw [hi.1]; omega)
  have e1 : (((cfg1.win 2).blk t).view.emb (ix2 p q)) 1 = ⟨512 * (t.val / 16) + q.val, hd⟩ := Fin.ext (by
    show win1_2.index t 1 * 512 + 1 * q.val = 512 * (t.val / 16) + q.val; rw [hi.2]; omega)
  rw [e0, e1]
  rfl

theorem mem_blk1 (t : Fin cfg1.N) (i : S2048x8192.Idx) :
    i ∈ ((cfg1.win 2).blk t).view.set ↔ ∀ a : Fin 2, win1_2.index t a * S2048x512.size a ≤ (i a).val ∧ (i a).val < win1_2.index t a * S2048x512.size a + S2048x512.size a := by
  show i ∈ ((View.whole main_v8).slice (win1_2.rect t)).set ↔ _
  rw [View.set_slice_whole, Rect.mem_set_unit]
  exact Iff.rfl

/-- After the region its output array is the product: the write-back at the last step of column block b covers columns 512·b onwards. -/
theorem final1 : (dat1 V c).arrAt 2 cfg1.N = prod1 (V c main_v7) (V c main_arg0) :=
  (dat1 V c).arrAt_eq_of_cover 2 (prod1 (V c main_v7) (V c main_arg0)) (flushed1_eq V c) fun i => by
    have hi0 : (i 0).val < 2048 := (i 0).isLt
    have hi1 : (i 1).val < 8192 := (i 1).isLt
    have hN : cfg1.N = 256 := N_1
    let t : Fin cfg1.N := ⟨16 * ((i 1).val / 512) + 15, by rw [hN]; omega⟩
    have ht : t.val = 16 * ((i 1).val / 512) + 15 := rfl
    have hidx := idx1_2 t
    refine ⟨t, (flush1_2 t).mpr (by rw [ht]; omega), ?_⟩
    rw [mem_blk1]
    intro a
    match a with
    | ⟨0, _⟩ => show win1_2.index t 0 * 2048 ≤ (i 0).val ∧ (i 0).val < win1_2.index t 0 * 2048 + 2048; rw [hidx.1]; omega
    | ⟨1, _⟩ => show win1_2.index t 1 * 512 ≤ (i 1).val ∧ (i 1).val < win1_2.index t 1 * 512 + 512; rw [hidx.2, ht]; omega

end Value

end Cert.KernelIdeal.Hand

end
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.Sums.lean ====
/-
  The two slab-by-slab sums as whole dot products: sixteen slabs of 512 positions are the 8192 positions of the first
  product's contracted axis, sixteen groups of 256 the 4096 of the second's. Only the regrouping of a finite sum in a
  commutative monoid is used, so nothing is asked of the entries (they may be infinite).
-/
import proofs.«140816_j76613626626565_2_alg».proof.Proof.Val0
import proofs.«140816_j76613626626565_2_alg».proof.Proof.Val1
import proofs.«140816_j76613626626565_2_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open BigOperators

theorem prod0_apply (P : S2048x8192.Idx → EReal) (X : S4096x8192.Idx → EReal) (o : Fin 2048) (d : Fin 4096) :
    prod0 P X (ix2 o d) = ∑ k : Fin 8192, P (ix2 o k) * X (ix2 d k) := by
  unfold prod0
  show (∑ s ∈ Finset.range 16, ∑ q : Fin 512, rowdot0 P X o d (512 * s + q.val)) = _
  rw [← Cert.BlockSum.sum_range_blocks 16 512 (rowdot0 P X o d)]
  show (∑ k : Fin 8192, rowdot0 P X o d k.val) = _
  refine Finset.sum_congr rfl fun k _ => ?_
  unfold rowdot0
  rw [dif_pos k.isLt]

theorem prod1_apply (T : S2048x4096.Idx → EReal) (X : S4096x8192.Idx → EReal) (o : Fin 2048) (n : Fin 8192) :
    prod1 T X (ix2 o n) = ∑ p : Fin 4096, T (ix2 o p) * X (ix2 p n) := by
  unfold prod1
  show (∑ s ∈ Finset.range 16, ∑ q : Fin 256, coldot1 T X o n (256 * s + q.val)) = _
  rw [← Cert.BlockSum.sum_range_blocks 16 256 (coldot1 T X o n)]
  show (∑ k : Fin 4096, coldot1 T X o n k.val) = _
  refine Finset.sum_congr rfl fun k _ => ?_
  unfold coldot1
  rw [dif_pos k.isLt]

end Cert.KernelIdeal.Hand

end
-- ==== Proof.Bridge.lean ====
/-
  The kernel's result as one function of the arguments, and that it is the reference's. The host operations centre the
  second argument's rows (subtract each row's mean) and narrow; region 0 multiplies that by the transposed first argument;
  region 1 multiplies the outcome by the first argument. At the ideal values the narrowing is the identity and each
  region's slab-by-slab sum is the whole dot product, so the result at (o, n) is
  the sum over d of (the sum over k of centred(o, k) · x(d, k)) · x(d, n) — the reference's two contractions, term for term.
-/
import proofs.«140816_j76613626626565_2_alg».proof.Proof.Run
import proofs.«140816_j76613626626565_2_alg».proof.Proof.Sums
import proofs.«140816_j76613626626565_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open BigOperators

/-- The second argument with each row's mean subtracted: the host operations' term, before the narrowing. -/
def centred (x1 : (⟨S2048x8192, .f32⟩ : BufTy).Contents (Elt Ideal)) : (⟨S2048x8192, .f32⟩ : BufTy).Contents (Elt Ideal) :=
  subf x1 (broadcastInDim S2048x8192 ![0, 1] bcast_S2048x1_S2048x8192_0_1 (Host.divf (broadcastInDim S2048x1 ![0] bcast_S2048_S2048x1_0 (Host.reduceAdd x1 (constant (F := Ideal) S_ .f32 0x00000000#32) reducesTo_S2048x8192_S2048_d1 h_S_)) (broadcastInDim S2048x1 ![] bcast_S_S2048x1 (constant (F := Ideal) S_ .f32 0x46000000#32))))

section
variable (m : (ℓ : Loc nD τ sig) → Buf (Elt Ideal) ℓ) (ρ : Dev nD → PrngReg) (c : Dev nD)

/-- Region 0 finds the first argument as launched, -/
theorem in0_arg0 : Vin0 m ρ c main_arg0 = m ((c : Thread nD τ).loc main_arg0) :=
  hostOps0_keeps m ρ c main_arg0 (by decide)

/-- and its left operand at the centred second argument (narrowed: the identity at the ideal values). -/
theorem in0_v6 : (Vin0 m ρ c main_v6 : S2048x8192.Idx → EReal) = centred (m ((c : Thread nD τ).loc main_arg1)) := by
  have e : @Eq (S2048x8192.Idx → EReal) (Vin0 m ρ c main_v6) (truncf (F := Ideal) .bf16 (centred (m ((c : Thread nD τ).loc main_arg1))) bitsLt_bf16_f32) := by
    dsimp only [Vin0, W1, hostOps0]; after_results; rfl
  exact e.trans rfl

/-- Region 1 finds the first argument as launched, -/
theorem in1_arg0 : Vin1 m ρ c main_arg0 = m ((c : Thread nD τ).loc main_arg0) :=
  ((W2_arr m ρ c 1).trans (((dat0 (Vin0 m ρ) c).arrAt_in 1 rfl _).trans (A_eq0 (Vin0 m ρ) c 1))).trans (in0_arg0 m ρ c)

/-- and its resident left operand at the first product. -/
theorem in1_v7 : (Vin1 m ρ c main_v7 : S2048x4096.Idx → EReal)
    = prod0 (centred (m ((c : Thread nD τ).loc main_arg1))) (m ((c : Thread nD τ).loc main_arg0)) := by
  have e : Vin1 m ρ c main_v7 = (dat0 (Vin0 m ρ) c).arrAt 2 cfg0.N := W2_arr m ρ c 2
  rw [e, final0, in0_v6, in0_arg0]

/-- The kernel's result: the second product of the first product. -/
def result (x0 : S4096x8192.Idx → EReal) (x1 : S2048x8192.Idx → EReal) : S2048x8192.Idx → EReal :=
  prod1 (prod0 (centred x1) x0) x0

theorem final_v8 : ((dat1 (Vin1 m ρ) c).arrAt 2 cfg1.N : S2048x8192.Idx → EReal)
    = result (m ((c : Thread nD τ).loc main_arg0)) (m ((c : Thread nD τ).loc main_arg1)) := by
  rw [final1, in1_v7, in1_arg0]; rfl

/-- The run, read: the result's buffer at `result` of the arguments, the arguments unchanged. -/
theorem run_value : θ_run defs (onTc (τ := τ) (main (F := Ideal))) ⟨m, fun _ => 0, ρ⟩ (fun r => ∀ c : Dev nD,
      r.2.mem ((c.tc : Thread nD τ).loc main_v8) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final_v8 m ρ c), (h c).2⟩) (run_read m ρ)

end

/-! ## The reference computes the same function -/

theorem lidx6 (o : Fin 2048) (d : Fin 4096) (k : Fin 8192) : Cert.ReferenceIdeal.Read.lidx_main_v6 (ix2 o d) k = ix2 o k :=
  funext fun a => Fin.ext (by match a with | ⟨0, _⟩ => rfl | ⟨1, _⟩ => rfl)
theorem ridx6 (o : Fin 2048) (d : Fin 4096) (k : Fin 8192) : Cert.ReferenceIdeal.Read.ridx_main_v6 (ix2 o d) k = ix2 d k :=
  funext fun a => Fin.ext (by match a with | ⟨0, _⟩ => rfl | ⟨1, _⟩ => rfl)
theorem lidx7 (o : Fin 2048) (n : Fin 8192) (k : Fin 4096) : Cert.ReferenceIdeal.Read.lidx_main_v7 (ix2 o n) k = ix2 o k :=
  funext fun a => Fin.ext (by match a with | ⟨0, _⟩ => rfl | ⟨1, _⟩ => rfl)
theorem ridx7 (o : Fin 2048) (n : Fin 8192) (k : Fin 4096) : Cert.ReferenceIdeal.Read.ridx_main_v7 (ix2 o n) k = ix2 k n :=
  funext fun a => Fin.ext (by match a with | ⟨0, _⟩ => rfl | ⟨1, _⟩ => rfl)

/-- The reference's centred rows are the kernel's: the same five host operations. -/
theorem ref_centred (x1 : S2048x8192.Idx → EReal) : Cert.ReferenceIdeal.Read.val_main_v5 (F := Ideal) x1 = centred x1 := rfl

/-- THE BRIDGE: the reference's two contractions are the kernel's two products, index by index. -/
theorem ref_eq_result (x0 : S4096x8192.Idx → EReal) (x1 : S2048x8192.Idx → EReal) :
    Cert.ReferenceIdeal.Read.val_main_v7 (F := Ideal) x0 x1 = result x0 x1 := by
  funext (i : S2048x8192.Idx)
  obtain ⟨o, n, rfl⟩ : ∃ (o : Fin 2048) (n : Fin 8192), i = ix2 o n := ⟨i 0, i 1, eq_ix2 i⟩
  unfold result
  rw [Cert.ReferenceIdeal.Read.val_main_v7_apply, prod1_apply]
  refine Finset.sum_congr rfl fun p _ => ?_
  rw [lidx7, ridx7, Cert.ReferenceIdeal.Read.val_main_v6_apply, prod0_apply]
  congr 1
  refine Finset.sum_congr rfl fun k _ => ?_
  rw [lidx6, ridx6, ref_centred]

end Cert.KernelIdeal.Hand

end
-- ==== Proof.lean ====
/-
  The kernel centres the rows of Psi (subtracts each row's mean), narrows, and multiplies twice by x on the matrix unit:
  first against x transposed, accumulating sixteen slabs of the 8192-long contracted axis per output block, then against
  x, accumulating sixteen groups of the 4096-long one; the reference does the same two contractions whole. At the ideal
  values narrowing is the identity and a finite sum may be regrouped freely (addition on the extended reals is commutative
  and associative, infinities included), so both programs compute
      out(o, n) = Σ_d (Σ_k (Psi(o,k) − mean_o) · x(d,k)) · x(d,n),
  and no finiteness of the inputs is needed for the equality. The frames: each kernel region runs its body at every grid
  point, the accumulator carried from point to point in the region's invariant; the reference is a straight line of host
  operations. The ideal pass rewrote nothing, so the idealization is the program's own text.
-/
import proofs.«140816_j76613626626565_2_alg».proof.Defs
import proofs.«140816_j76613626626565_2_alg».proof.Proof.Gen.Kernel
import proofs.«140816_j76613626626565_2_alg».proof.Proof.Gen.KernelIdeal
import proofs.«140816_j76613626626565_2_alg».proof.Proof.Gen.ReferenceIdeal
import proofs.«140816_j76613626626565_2_alg».proof.Proof.Gen.ReferenceIdeal.Run
import proofs.«140816_j76613626626565_2_alg».proof.Proof.Gen.Pre_finite_inputs
import proofs.«140816_j76613626626565_2_alg».proof.Proof.WRun
import proofs.«140816_j76613626626565_2_alg».proof.Proof.Bridge
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Hand.frame (F := Bits) m ρ

/-- So does the kernel read at the ideal values, -/
theorem frame_ki : Cert.frame_KernelIdeal := fun m ρ _ => Cert.KernelIdeal.Hand.frame (F := Ideal) m ρ

/-- and the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result buffer ends at the two products of the centred rows, and the reference's at
    its two contractions of the same arguments: one function. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v7_eq]
  exact Cert.KernelIdeal.Hand.ref_eq_result _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
